-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg7 : FVec F S128 .f32) (main_arg13 : FVec F S64 .f32) (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_cst_28 : FVec F S_ .f32 := constant S_ .f32 0x00000000#32
  let main_v74 : FVec F S128 .f32 := broadcastInDim S128 ![] bcast_S_S128 main_cst_28
  let main_v75 : IVec S128 1 := cmpf .oge main_arg7 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v73 main_v76
  let main_cst_30 : FVec F S_ .f32 := constant S_ .f32 0x00000000#32
  let main_v78 : FVec F S64 .f32 := broadcastInDim S64 ![] bcast_S_S64 main_cst_30
  let main_v79 : IVec S64 1 := cmpf .oge main_arg13 main_v78
  let main_c_31 : IVec S_ 1 := constantI S_ 1 1#1
  let main_v80 : IVec S_ 1 := (fun x v => Host.reduce IntOp.andi x v reducesTo_S64_S_d0 h_S_) main_v79 main_c_31
  let main_v81 : IVec S_ 1 := andi main_v77 main_v80
  main_v81

def fn_part3 {F : FTy → Type} [FloatOps F] (main_arg7 : FVec F S128 .f32) (main_arg12 : FVec F S64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg7 main_arg13 main_arg15 main_v63 main_v67

def fn_part2 {F : FTy → Type} [FloatOps F] (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg7 main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x512 .f32) (main_arg1 : IVec S2x800000 32) (main_arg2 : FVec F S512x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_arg14 : FVec F S64x2 .f32) (main_arg15 : FVec F S2 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩

abbrev nBuf : Space → Nat
  | .hbm => 130
  | .vmem => 27
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S_, .f32⟩
  | 58 => ⟨S128, .f32⟩
  | 59 => ⟨S128, .f32⟩
  | 60 => ⟨S128, .f32⟩
  | 61 => ⟨S128, .f32⟩
  | 62 => ⟨S128, .f32⟩
  | 63 => ⟨S128, .f32⟩
  | 64 => ⟨S128, .f32⟩
  | 65 => ⟨S_, .f32⟩
  | 66 => ⟨S64, .f32⟩
  | 67 => ⟨S64, .f32⟩
  | 68 => ⟨S64, .f32⟩
  | 69 => ⟨S64, .f32⟩
  | 70 => ⟨S64, .f32⟩
  | 71 => ⟨S64, .f32⟩
  | 72 => ⟨S64, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S1x128, .f32⟩
  | 91 => ⟨S50000x128, .f32⟩
  | 92 => ⟨S50000x64, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x64, .f32⟩
  | 102 => ⟨S850000x64, .f32⟩
  | 103 => ⟨S850000x64, .f32⟩
  | 104 => ⟨S_, .f32⟩
  | 105 => ⟨S50000x64, .f32⟩
  | 106 => ⟨S850000x1, .i32⟩
  | 107 => ⟨S50000x64, .f32⟩
  | 108 => ⟨S1x64, .f32⟩
  | 109 => ⟨S1x64, .f32⟩
  | 110 => ⟨S50000x64, .f32⟩
  | 111 => ⟨S50000x2, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x2, .f32⟩
  | 121 => ⟨S850000x2, .f32⟩
  | 122 => ⟨S850000x2, .f32⟩
  | 123 => ⟨S_, .f32⟩
  | 124 => ⟨S50000x2, .f32⟩
  | 125 => ⟨S850000x1, .i32⟩
  | 126 => ⟨S50000x2, .f32⟩
  | 127 => ⟨S1x2, .f32⟩
  | _ => ⟨S50000x512, .f32⟩

abbrev hbmTy0_1 (i : Nat) : BufTy := match i % 128 with
  | 0 => ⟨S50000x2, .f32⟩
  | 1 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x2, .f32⟩
  | .local _ .vmem, ⟨25, _⟩ => ⟨S5000x2, .f32⟩
  | .local _ .vmem, ⟨26, _⟩ => ⟨S5000x2, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_c_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_13 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_14 : Ref sig .tc := ⟨.hbm, 112, rfl⟩
abbrev main_v78 : Ref sig .tc := ⟨.hbm, 113, rfl⟩
abbrev main_v79 : Ref sig .tc := ⟨.hbm, 114, rfl⟩
abbrev main_c_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  bcast_S_S64 : S_.BroadcastsInDim S64 (![] : Fin 0 → Fin S64.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x2_S5000x2_1_0_0_1_n_n_wf : DotDims.WF S5000x64 S64x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S50000x2.size a
  hwx4_2 : ∀ i : grid4.Coords, EltTy.bits .f32 = 32 ∨ (Rect.block (s := S50000x2) S5000x2.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v76) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 192
  | .vmem => 0
  | .smem => 0
  | _ => 0

abbrev hbmTy0_0 (i : Nat) : BufTy := match i % 128 with
  | 0 => ⟨S50000x512, .f32⟩
  | 1 => ⟨S2x800000, .i32⟩
  | 2 => ⟨S512x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S64x2, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S50000x128, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x64, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000, .f32⟩
  | 114 => ⟨S850000, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x512, .f32⟩

abbrev hbmTy0_1 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S64, .f32⟩
  | 11 => ⟨S64, .f32⟩
  | 12 => ⟨S64, .f32⟩
  | 13 => ⟨S1x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x2, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x2, .f32⟩
  | 54 => ⟨S850000x1, .f32⟩
  | 55 => ⟨S850000x2, .f32⟩
  | 56 => ⟨S850000x2, .f32⟩
  | 57 => ⟨S_, .f32⟩
  | 58 => ⟨S50000x2, .f32⟩
  | 59 => ⟨S850000x1, .i32⟩
  | 60 => ⟨S50000x2, .f32⟩
  | 61 => ⟨S1x2, .f32⟩
  | 62 => ⟨S50000x2, .f32⟩
  | 63 => ⟨S50000x2, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_12 : Ref sig .tc := ⟨.hbm, 105, rfl⟩
abbrev main_v71 : Ref sig .tc := ⟨.hbm, 106, rfl⟩
abbrev main_v72 : Ref sig .tc := ⟨.hbm, 107, rfl⟩
abbrev main_c_13 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_c_15 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call2_cst : Ref sig .tc := ⟨.hbm, 150, rfl⟩
abbrev main_call2_v0 : Ref sig .tc := ⟨.hbm, 151, rfl⟩
abbrev main_v110 : Ref sig .tc := ⟨.hbm, 152, rfl⟩
abbrev main_v111 : Ref sig .tc := ⟨.hbm, 153, rfl⟩
abbrev main_c_18 : Ref sig .tc := ⟨.hbm, 154, rfl⟩
abbrev main_v112 : Ref sig .tc := ⟨.hbm, 155, rfl⟩
abbrev main_v113 : Ref sig .tc := ⟨.hbm, 156, rfl⟩
abbrev main_c_19 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_20 : Ref sig .tc := ⟨.hbm, 163, rfl⟩
abbrev main_v119 : Ref sig .tc := ⟨.hbm, 164, rfl⟩
abbrev main_v120 : Ref sig .tc := ⟨.hbm, 165, rfl⟩
abbrev main_c_21 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_c_22 : Ref sig .tc := ⟨.hbm, 173, rfl⟩
abbrev main_v127 : Ref sig .tc := ⟨.hbm, 174, rfl⟩
abbrev main_v128 : Ref sig .tc := ⟨.hbm, 175, rfl⟩
abbrev main_c_23 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_24 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  dot_S50000x512_S512x128_S50000x128_1_0_0_1_n_n_wf : DotDims.WF S50000x512 S512x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x2_S50000x2_1_0_0_1_n_n_wf : DotDims.WF S50000x64 S64x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.NamedRun.lean ====
/-
  The kernel program's run with its RESULT named. From any launch memory every weakly fair execution of @main
  terminates without a fault, and the final memory holds, at the result buffer, the contents the segment fold reaches
  there: the host stretches applied in order, each region's arrays replaced by what its write-backs leave
  (`Gen.W11`); the argument arrays end as launched. This is the frame's launch over the eleven segments with the
  result buffer read from the last thread state beside the arguments.
-/
import proofs.«167507_j52218212385223_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the fold's contents and the arguments as launched. -/
theorem run : θ_run defs (onTc (τ := τ) (main (F := F))) ⟨m, fun _ => 0, ρ⟩ (fun r => ∀ c : Dev nD,
      r.2.mem ((c.tc : Thread nD τ).loc main_v92) = W11 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v92 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c)⟩)

end Cert.KernelIdeal.Named

end
-- ==== Proof.FiniteParams.lean ====
/-
  What the precondition says about the batch-norm parameter rows, at the extended reals. The precondition is a
  conjunction of one word per array: for every float array x the conjunction over all entries of |x| < +∞, and for the
  two variance rows the conjunction over all entries of v ≥ 0. A conjunction over all entries that is 1 gives the
  compared relation at each entry; |a| = max a (-a) below +∞ excludes both infinities, so the entry is a real number;
  and a real number that is at least 0 as an extended real is a nonnegative real number.
-/
import proofs.«167507_j52218212385223_1_alg».proof.Pre_finite_inputs
import proofs.«167507_j52218212385223_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Params

open Idealize.ShloMosaic Cert.Pre_finite_inputs

/-- The rank-0 shape has one index. -/
instance : Subsingleton S_.Idx := ⟨fun a b => funext fun d => d.elim0⟩

/-- The f32 pattern 0x7F800000 denotes +∞. -/
theorem ofBits_inf_f32 : Ideal.ofBits .f32 0x7F800000#32 = ⊤ := by simp [Ideal.ofBits, Ideal.ieee]

/-- A comparison's word is 1 exactly when the compared relation holds. -/
theorem ofBool_eq_one (b : Bool) : BitVec.ofBool b = 1#1 ↔ b = true := by cases b <;> decide

/-- An extended real whose absolute value max a (-a) lies below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The conjunction over all entries of |x| < +∞ is 1: every entry of x is a real number. -/
theorem finite_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .olt (Host.absf x) (broadcastInDim S ![] hb (constant S_ .f32 0x7F800000#32)))
          (constantI S_ 1 1#1) hr hu ValueIdx.ix0 = 1#1) (j : S.Idx) : ∃ r : ℝ, x j = (r : EReal) := by
  have h := Host.reduce_andi_all _ _ hr hu ValueIdx.ix0 e j
  have h' : Ideal.cmp .olt (max (x j) (-(x j))) (Ideal.ofBits .f32 0x7F800000#32) = 1#1 := h
  rw [ofBits_inf_f32] at h'
  unfold Ideal.cmp at h'
  rw [ofBool_eq_one, decide_eq_true_eq] at h'
  exact real_of_abs_lt_top _ h'

/-- The conjunction over all entries of x ≥ 0 is 1: every entry of x is at least 0. -/
theorem nonneg_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi (cmpf .oge x (broadcastInDim S ![] hb (constant S_ .f32 0x00000000#32)))
          (constantI S_ 1 1#1) hr hu ValueIdx.ix0 = 1#1) (j : S.Idx) : (0 : EReal) ≤ x j := by
  have h := Host.reduce_andi_all _ _ hr hu ValueIdx.ix0 e j
  have h' : Ideal.cmp .oge (x j) (Ideal.ofBits .f32 0x00000000#32) = 1#1 := h
  rw [Ideal.ofBits_zero_f32] at h'
  unfold Ideal.cmp at h'
  rw [ofBool_eq_one, decide_eq_true_eq] at h'
  exact h'

/-- Both facts together: every entry is a nonnegative real number. -/
theorem nonneg_real {S : Shape} (x : FVec Ideal S .f32) (hf : ∀ j, ∃ r : ℝ, x j = (r : EReal)) (hn : ∀ j, (0 : EReal) ≤ x j)
    (j : S.Idx) : ∃ r : ℝ, 0 ≤ r ∧ x j = (r : EReal) := by
  obtain ⟨r, hr⟩ := hf j
  have := hn j
  rw [hr] at this
  exact ⟨r, EReal.coe_nonneg.1 this, hr⟩

/-- The precondition, decoded for the ten batch-norm parameter rows: the biases, scales, shifts and means are real numbers,
    and the two variances are nonnegative real numbers. (The conjuncts about the feature matrix, the edge list and the
    weight matrices are not opened.) -/
theorem of_pre [Cert.Pre_finite_inputs.Facts]
    (x0 : FVec Ideal S50000x512 .f32) (x1 : IVec S2x800000 32) (x2 : FVec Ideal S512x128 .f32)
    (x3 : FVec Ideal S128 .f32) (x4 : FVec Ideal S128 .f32) (x5 : FVec Ideal S128 .f32) (x6 : FVec Ideal S128 .f32)
    (x7 : FVec Ideal S128 .f32) (x8 : FVec Ideal S128x64 .f32)
    (x9 : FVec Ideal S64 .f32) (x10 : FVec Ideal S64 .f32) (x11 : FVec Ideal S64 .f32) (x12 : FVec Ideal S64 .f32)
    (x13 : FVec Ideal S64 .f32) (x14 : FVec Ideal S64x2 .f32) (x15 : FVec Ideal S2 .f32)
    (h : Cert.Pre_finite_inputs.fn (F := Ideal) x0 x1 x2 x3 x4 x5 x6 x7 x8 x9 x10 x11 x12 x13 x14 x15 = fun _ => 1#1) :
    (∀ j, ∃ r : ℝ, x3 j = (r : EReal)) ∧ (∀ j, ∃ r : ℝ, x4 j = (r : EReal)) ∧ (∀ j, ∃ r : ℝ, x5 j = (r : EReal)) ∧ (∀ j, ∃ r : ℝ, x6 j = (r : EReal))
    ∧ (∀ j, ∃ r : ℝ, 0 ≤ r ∧ x7 j = (r : EReal))
    ∧ (∀ j, ∃ r : ℝ, x9 j = (r : EReal)) ∧ (∀ j, ∃ r : ℝ, x10 j = (r : EReal)) ∧ (∀ j, ∃ r : ℝ, x11 j = (r : EReal)) ∧ (∀ j, ∃ r : ℝ, x12 j = (r : EReal))
    ∧ (∀ j, ∃ r : ℝ, 0 ≤ r ∧ x13 j = (r : EReal)) := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨-, h3⟩, h4⟩, h5⟩, h6⟩, h7⟩, -⟩, h9⟩, h10⟩, h11⟩, h12⟩, h13⟩, -⟩, -⟩, g7⟩, g13⟩ := e
  exact ⟨finite_of_all x3 _ _ _ h3, finite_of_all x4 _ _ _ h4, finite_of_all x5 _ _ _ h5, finite_of_all x6 _ _ _ h6,
    nonneg_real x7 (finite_of_all x7 _ _ _ h7) (nonneg_of_all x7 _ _ _ g7),
    finite_of_all x9 _ _ _ h9, finite_of_all x10 _ _ _ h10, finite_of_all x11 _ _ _ h11, finite_of_all x12 _ _ _ h12,
    nonneg_real x13 (finite_of_all x13 _ _ _ h13) (nonneg_of_all x13 _ _ _ g13)⟩

end Cert.Pre_finite_inputs.Params

end
-- ==== Proof.FoldedParams.lean ====
/-
  The kernel folds each hidden layer's bias and batch normalisation into one affine map per column, computed once on the
  host from the layer's parameters: scale = g · rsqrt(v + ε) and shift = (b − μ) · scale + β, with ε the f32 value of 1e-5.
  Each is laid out as a one-row matrix for the region that applies max(h · scale + shift, 0) row by row.
-/
import proofs.«167507_j52218212385223_1_alg».proof.Proof.Gen.KernelIdeal
import Idealize.ShloMosaic.PureOps.Ideal

noncomputable section

namespace Cert.KernelIdeal.Folded

open Cert.KernelIdeal Cert.KernelIdeal.Facts₀ Idealize.ShloMosaic

/-- g · rsqrt(v + ε), entry by entry, width 128. -/
def scale128 (g v : FVec Ideal S128 .f32) : FVec Ideal S128 .f32 :=
  mulf g (Host.rsqrt (addf v (broadcastInDim S128 ![] bcast_S_S128 (constant (F := Ideal) S_ .f32 0x3727C5AC#32))))

/-- (b − μ) · scale + β, entry by entry, width 128. -/
def shift128 (b g β μ v : FVec Ideal S128 .f32) : FVec Ideal S128 .f32 :=
  addf (mulf (subf b μ) (scale128 g v)) β

/-- g · rsqrt(v + ε), entry by entry, width 64. -/
def scale64 (g v : FVec Ideal S64 .f32) : FVec Ideal S64 .f32 :=
  mulf g (Host.rsqrt (addf v (broadcastInDim S64 ![] bcast_S_S64 (constant (F := Ideal) S_ .f32 0x3727C5AC#32))))

/-- (b − μ) · scale + β, entry by entry, width 64. -/
def shift64 (b g β μ v : FVec Ideal S64 .f32) : FVec Ideal S64 .f32 :=
  addf (mulf (subf b μ) (scale64 g v)) β

/-- A width-128 vector as a one-row matrix. -/
def row128 (p : FVec Ideal S128 .f32) : FVec Ideal S1x128 .f32 := shapeCast S1x128 p shapeCasts_S128_S1x128

/-- A width-64 vector as a one-row matrix. -/
def row64 (p : FVec Ideal S64 .f32) : FVec Ideal S1x64 .f32 := shapeCast S1x64 p shapeCasts_S64_S1x64

end Cert.KernelIdeal.Folded

end
-- ==== Proof.EntryContents.lean ====
import proofs.«167507_j52218212385223_1_alg».proof.Proof.Gen.KernelIdeal.Frame
import proofs.«167507_j52218212385223_1_alg».proof.Proof.ReadPatched
import proofs.«167507_j52218212385223_1_alg».proof.Proof.FoldedParams
import Idealize.ShloMosaic.Lib.StableHlo.Run
import Idealize.ShloMosaic.PureOps.Ideal

/-! # What the buffers hold when the first region is entered

Three stretches of host operations run before the first region. None of them writes an argument the regions read.
They build the source and destination lists of the edges with the self-loops appended, the edge-weight column
`d[src] · d[dst]` with `d` the inverse square root of the degree (zero where the degree is zero), and each
hidden layer's folded batch-normalisation parameters `scale = g · rsqrt(v + ε)` and
`shift = (b − μ) · scale + β`. Each of these buffers is stated as a function of the launch contents of the
arguments: the lists and the weights as the reference's own stages of the edge array, which are the same operations
in the same order. -/

noncomputable section

namespace Cert.KernelIdeal.Bound

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg) (c : Dev nD)

/-! ## The arguments the regions read are as launched -/

/-- No host operation before the first region writes argument 0: it is as launched. -/
theorem arg0_3 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

/-- No host operation before the first region writes argument 2: it is as launched. -/
theorem arg2_3 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

/-- No host operation before the first region writes argument 8: it is as launched. -/
theorem arg8_3 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp

/-- No host operation before the first region writes argument 14: it is as launched. -/
theorem arg14_3 : W3 m ρ c (Proc.devRef .tc main_arg14) = m ((c : Thread nD τ).loc main_arg14) := by
  show StableHlo.after hostOps0_2 (StableHlo.after hostOps0_1 (StableHlo.after hostOps0 (W0 m ρ c))) (Proc.devRef .tc main_arg14) = _
  after_results_simp

/-- No host operation before the first region writes argument 15: it is as launched. -/
theorem arg15_3 : W3 m ρ c (Proc.devRef .tc main_arg15) = m ((c : Thread nD τ).loc main_arg15) := by
  show StableHlo.after hostOps0_2 (StableHlo.after hostOps0_1 (StableHlo.after hostOps0 (W0 m ρ c))) (Proc.devRef .tc main_arg15) = _
  after_results_simp

/-! ## The folded batch-normalisation parameters -/

/-- The first hidden layer's scale, `g · rsqrt(v + ε)`, of the launch contents of its parameters. -/
theorem scale1_3 : W3 m ρ c (Proc.devRef .tc main_v34) = Cert.KernelIdeal.Folded.scale128 (m ((c : Thread nD τ).loc main_arg4)) (m ((c : Thread nD τ).loc main_arg7)) := by
  show StableHlo.after hostOps0_2 (StableHlo.after hostOps0_1 (StableHlo.after hostOps0 (W0 m ρ c))) (Proc.devRef .tc main_v34) = _
  after_results_simp
  rfl

/-- The first hidden layer's shift, `(b − μ) · scale + β`. -/
theorem shift1_3 : W3 m ρ c (Proc.devRef .tc main_v37) = Cert.KernelIdeal.Folded.shift128 (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps0_2 (StableHlo.after hostOps0_1 (StableHlo.after hostOps0 (W0 m ρ c))) (Proc.devRef .tc main_v37) = _
  after_results_simp
  rfl

/-- The second hidden layer's scale. -/
theorem scale2_3 : W3 m ρ c (Proc.devRef .tc main_v41) = Cert.KernelIdeal.Folded.scale64 (m ((c : Thread nD τ).loc main_arg10)) (m ((c : Thread nD τ).loc main_arg13)) := by
  show StableHlo.after hostOps0_2 (StableHlo.after hostOps0_1 (StableHlo.after hostOps0 (W0 m ρ c))) (Proc.devRef .tc main_v41) = _
  after_results_simp
  rfl

/-- The second hidden layer's shift. -/
theorem shift2_3 : W3 m ρ c (Proc.devRef .tc main_v44) = Cert.KernelIdeal.Folded.shift64 (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps0_2 (StableHlo.after hostOps0_1 (StableHlo.after hostOps0 (W0 m ρ c))) (Proc.devRef .tc main_v44) = _
  after_results_simp
  rfl

/-! ## Typed references

A function the program outlines names its buffers by references that carry the type of the value they hold, and
moves contents along that type equation on the way in and out. Moving there and back is the identity, and moving
either way keeps the contents. -/

/-- Into a typed reference's buffer and back out is the identity. -/
theorem ofBuf_toBuf {T : BufTy} (x : TRef sig T) (v : T.Contents (Elt Ideal)) : x.ofBuf (x.toBuf v) = v := by
  obtain ⟨r, rfl, h2, h3⟩ := x
  rfl

/-- Out of a typed reference's buffer: the same contents. -/
theorem ofBuf_of_heq {T : BufTy} (x : TRef sig T) (u : x.ref.ty.Contents (Elt Ideal)) (v : T.Contents (Elt Ideal))
    (h : HEq u v) : x.ofBuf u = v := by
  obtain ⟨r, rfl, h2, h3⟩ := x
  exact eq_of_heq h

/-- Into a typed reference's buffer: the same contents. -/
theorem toBuf_heq {T : BufTy} (x : TRef sig T) (v : T.Contents (Elt Ideal)) : HEq (x.toBuf v) v := by
  obtain ⟨r, rfl, h2, h3⟩ := x
  exact HEq.rfl

/-! ## The edge lists and the edge weights

The host operations before the first region build, from the [2,800000] edge array, the source and destination
lists with the 50000 self-loops appended, the degree of every node by a scatter-add of ones at the destinations, its
inverse square root where the degree is positive and zero elsewhere, and the weight of every edge as the product of
that quantity at its two ends, laid out as a column. These are the same operations, in the same order, as the
reference's first stages of the same edge array. -/

/-- The source list with the self-loops appended. -/
theorem src3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

/-- The destination list with the self-loops appended. -/
theorem dst3 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

/-- The source list as the first two stretches of host operations leave it. -/
theorem src2 : W2 m ρ c (Proc.devRef .tc main_v3) = Cert.ReferenceIdeal.ReadP.val_main_v3 (F := Ideal) (m ((c : Thread nD τ).loc main_arg1)) := by
  show StableHlo.after hostOps0_1 (StableHlo.after hostOps0 (W0 m ρ c)) (Proc.devRef .tc main_v3) = _
  after_results_simp
  rfl

/-- The destination list as the first two stretches leave it. -/
theorem dst2 : W2 m ρ c (Proc.devRef .tc main_v6) = Cert.ReferenceIdeal.ReadP.val_main_v6 (F := Ideal) (m ((c : Thread nD τ).loc main_arg1)) := by
  show StableHlo.after hostOps0_1 (StableHlo.after hostOps0 (W0 m ρ c)) (Proc.devRef .tc main_v6) = _
  after_results_simp
  rfl

/-- Where the degree is positive, as the first stretch leaves it. -/
theorem degPos1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp
  rfl

/-- The inverse square root of the degree, as the first stretch leaves it. -/
theorem degRsqrt1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp
  rfl

/-- The zero the selection falls back to. -/
theorem zero1 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-- The inverse square root of every node's degree, zero where the degree is zero: a scatter-add of ones at the
    destinations, then `rsqrt` selected against zero where the sum is positive. The selection is an outlined
    function over typed references. -/
theorem invSqrtDeg2 : W2 m ρ c (Proc.devRef .tc main_v14) = Cert.ReferenceIdeal.ReadP.val_main_v14 (F := Ideal) (m ((c : Thread nD τ).loc main_arg1)) := by
  have h12 := degPos1 m ρ c
  have h13 := degRsqrt1 m ρ c
  have hz := zero1 m ρ c
  show StableHlo.after hostOps0_1 (W1 m ρ c) (Proc.devRef .tc main_v14) = _
  generalize W1 m ρ c = F1 at h12 h13 hz ⊢
  after_results_simp
  refine (eq_of_heq (toBuf_heq _ _)).trans ?_
  rw [ofBuf_toBuf, ofBuf_toBuf]
  rw [ofBuf_of_heq _ _ _ (heq_of_eq h12), ofBuf_of_heq _ _ _ (heq_of_eq h13), ofBuf_of_heq _ _ _ (heq_of_eq hz)]
  rfl

/-- The edge-weight column: the inverse square roots of the degrees gathered at each edge's source and destination
    (a negative index wrapped by the node count) and multiplied, one row per edge. The third stretch computes it from
    the lists and the degrees the first two left, which are the reference's stages of the same names. -/
theorem wt3 : W3 m ρ c (Proc.devRef .tc main_v30) = Cert.ReferenceIdeal.ReadP.val_main_v38 (F := Ideal) (m ((c : Thread nD τ).loc main_arg1)) := by
  have h14 := invSqrtDeg2 m ρ c
  have h3 := src2 m ρ c
  have h6 := dst2 m ρ c
  show StableHlo.after hostOps0_2 (W2 m ρ c) (Proc.devRef .tc main_v30) = _
  generalize W2 m ρ c = F2 at h14 h3 h6 ⊢
  after_results_simp
  rw [h14, h3, h6]
  simp only [Cert.ReferenceIdeal.ReadP.val_main_v38, Cert.ReferenceIdeal.ReadP.val_main_v30, Cert.ReferenceIdeal.ReadP.val_main_v22, Cert.ReferenceIdeal.ReadP.val_main_v29, Cert.ReferenceIdeal.ReadP.val_main_v21, Cert.ReferenceIdeal.ReadP.val_main_v28, Cert.ReferenceIdeal.ReadP.val_main_v20, Cert.ReferenceIdeal.ReadP.val_main_v27, Cert.ReferenceIdeal.ReadP.val_main_v17, Cert.ReferenceIdeal.ReadP.val_main_v19, Cert.ReferenceIdeal.ReadP.val_main_v24, Cert.ReferenceIdeal.ReadP.val_main_v26, Cert.ReferenceIdeal.ReadP.val_main_v16, Cert.ReferenceIdeal.ReadP.val_main_v18, Cert.ReferenceIdeal.ReadP.val_main_v23, Cert.ReferenceIdeal.ReadP.val_main_v25, Cert.ReferenceIdeal.ReadP.val_main_c, Cert.ReferenceIdeal.ReadP.val_main_c_3, Cert.ReferenceIdeal.ReadP.val_main_c_4, Cert.ReferenceIdeal.ReadP.val_main_c_5]
  rfl

/-- The reference recomputes the edge-weight column for its second layer by the same operations of the same
    lists and degrees. -/
theorem wt_layer2 (x1) : Cert.ReferenceIdeal.ReadP.val_main_v86 (F := Ideal) x1 = Cert.ReferenceIdeal.ReadP.val_main_v38 (F := Ideal) x1 := by
  simp only [Cert.ReferenceIdeal.ReadP.val_main_v86, Cert.ReferenceIdeal.ReadP.val_main_v78, Cert.ReferenceIdeal.ReadP.val_main_v70, Cert.ReferenceIdeal.ReadP.val_main_v77, Cert.ReferenceIdeal.ReadP.val_main_v69, Cert.ReferenceIdeal.ReadP.val_main_v76, Cert.ReferenceIdeal.ReadP.val_main_v68, Cert.ReferenceIdeal.ReadP.val_main_v75, Cert.ReferenceIdeal.ReadP.val_main_v65, Cert.ReferenceIdeal.ReadP.val_main_v67, Cert.ReferenceIdeal.ReadP.val_main_v72, Cert.ReferenceIdeal.ReadP.val_main_v74, Cert.ReferenceIdeal.ReadP.val_main_v64, Cert.ReferenceIdeal.ReadP.val_main_v66, Cert.ReferenceIdeal.ReadP.val_main_v71, Cert.ReferenceIdeal.ReadP.val_main_v73, Cert.ReferenceIdeal.ReadP.val_main_c_10, Cert.ReferenceIdeal.ReadP.val_main_c_11, Cert.ReferenceIdeal.ReadP.val_main_c_12, Cert.ReferenceIdeal.ReadP.val_main_c_13, Cert.ReferenceIdeal.ReadP.val_main_v38, Cert.ReferenceIdeal.ReadP.val_main_v30, Cert.ReferenceIdeal.ReadP.val_main_v22, Cert.ReferenceIdeal.ReadP.val_main_v29, Cert.ReferenceIdeal.ReadP.val_main_v21, Cert.ReferenceIdeal.ReadP.val_main_v28, Cert.ReferenceIdeal.ReadP.val_main_v20, Cert.ReferenceIdeal.ReadP.val_main_v27, Cert.ReferenceIdeal.ReadP.val_main_v17, Cert.ReferenceIdeal.ReadP.val_main_v19, Cert.ReferenceIdeal.ReadP.val_main_v24, Cert.ReferenceIdeal.ReadP.val_main_v26, Cert.ReferenceIdeal.ReadP.val_main_v16, Cert.ReferenceIdeal.ReadP.val_main_v18, Cert.ReferenceIdeal.ReadP.val_main_v23, Cert.ReferenceIdeal.ReadP.val_main_v25, Cert.ReferenceIdeal.ReadP.val_main_c, Cert.ReferenceIdeal.ReadP.val_main_c_3, Cert.ReferenceIdeal.ReadP.val_main_c_4, Cert.ReferenceIdeal.ReadP.val_main_c_5]

/-- And for its third layer. -/
theorem wt_layer3 (x1) : Cert.ReferenceIdeal.ReadP.val_main_v134 (F := Ideal) x1 = Cert.ReferenceIdeal.ReadP.val_main_v38 (F := Ideal) x1 := by
  simp only [Cert.ReferenceIdeal.ReadP.val_main_v134, Cert.ReferenceIdeal.ReadP.val_main_v126, Cert.ReferenceIdeal.ReadP.val_main_v118, Cert.ReferenceIdeal.ReadP.val_main_v125, Cert.ReferenceIdeal.ReadP.val_main_v117, Cert.ReferenceIdeal.ReadP.val_main_v124, Cert.ReferenceIdeal.ReadP.val_main_v116, Cert.ReferenceIdeal.ReadP.val_main_v123, Cert.ReferenceIdeal.ReadP.val_main_v113, Cert.ReferenceIdeal.ReadP.val_main_v115, Cert.ReferenceIdeal.ReadP.val_main_v120, Cert.ReferenceIdeal.ReadP.val_main_v122, Cert.ReferenceIdeal.ReadP.val_main_v112, Cert.ReferenceIdeal.ReadP.val_main_v114, Cert.ReferenceIdeal.ReadP.val_main_v119, Cert.ReferenceIdeal.ReadP.val_main_v121, Cert.ReferenceIdeal.ReadP.val_main_c_18, Cert.ReferenceIdeal.ReadP.val_main_c_19, Cert.ReferenceIdeal.ReadP.val_main_c_20, Cert.ReferenceIdeal.ReadP.val_main_c_21, Cert.ReferenceIdeal.ReadP.val_main_v38, Cert.ReferenceIdeal.ReadP.val_main_v30, Cert.ReferenceIdeal.ReadP.val_main_v22, Cert.ReferenceIdeal.ReadP.val_main_v29, Cert.ReferenceIdeal.ReadP.val_main_v21, Cert.ReferenceIdeal.ReadP.val_main_v28, Cert.ReferenceIdeal.ReadP.val_main_v20, Cert.ReferenceIdeal.ReadP.val_main_v27, Cert.ReferenceIdeal.ReadP.val_main_v17, Cert.ReferenceIdeal.ReadP.val_main_v19, Cert.ReferenceIdeal.ReadP.val_main_v24, Cert.ReferenceIdeal.ReadP.val_main_v26, Cert.ReferenceIdeal.ReadP.val_main_v16, Cert.ReferenceIdeal.ReadP.val_main_v18, Cert.ReferenceIdeal.ReadP.val_main_v23, Cert.ReferenceIdeal.ReadP.val_main_v25, Cert.ReferenceIdeal.ReadP.val_main_c, Cert.ReferenceIdeal.ReadP.val_main_c_3, Cert.ReferenceIdeal.ReadP.val_main_c_4, Cert.ReferenceIdeal.ReadP.val_main_c_5]

end Cert.KernelIdeal.Bound

end
-- ==== Proof.DenseBlock0.lean ====
import proofs.«167507_j52218212385223_1_alg».proof.Proof.Gen.KernelIdeal.Frame
import proofs.«167507_j52218212385223_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

/-! # The first dense layer: a [50000,512] array times a [512,128] array, 5000 rows at a time

The region's grid has ten points. At point `t` the body reads rows `5000 t … 5000 t + 4999` of the left
operand (an argument of the program) and the whole right operand, and stores their product
`∑ k, A (p, k) · B (k, j)` into rows `5000 t … 5000 t + 4999` of the result: the operands are narrowed to
bf16, which at the extended reals is the identity, and the accumulator is the zero block. The ten row blocks
tile the 50000 rows, so the result array ends holding the product of the two whole arrays, which is what the
host's `dot_general` of them is at every index. -/

noncomputable section

namespace Cert.KernelIdeal.Dense

open Idealize.ShloMosaic Idealize.ShloMosaic.TcCoe Idealize.SL.Sem Cert.KernelIdeal Cert.KernelIdeal.Gen
open Idealize.ShloMosaic.Pipeline (Dat)

/-! ## The product, index by index -/

/-- Row `r`, column `k` of the [50000,512] operand. -/
abbrev lhsAt0 (r : Fin 50000) (k : Fin 512) : S50000x512.Idx := fun a => match a with
  | ⟨0, _⟩ => ⟨r.val, r.isLt⟩
  | ⟨1, _⟩ => ⟨k.val, k.isLt⟩
/-- Row `k`, column `j` of the [512,128] operand. -/
abbrev rhsAt0 (k : Fin 512) (j : Fin 128) : S512x128.Idx := fun a => match a with
  | ⟨0, _⟩ => ⟨k.val, k.isLt⟩
  | ⟨1, _⟩ => ⟨j.val, j.isLt⟩
/-- Row `r`, column `k` of a [5000,512] block of the left operand. -/
abbrev lblkAt0 (r : Fin 5000) (k : Fin 512) : S5000x512.Idx := fun a => match a with
  | ⟨0, _⟩ => ⟨r.val, r.isLt⟩
  | ⟨1, _⟩ => ⟨k.val, k.isLt⟩

/-- The product of the two whole arrays: entry `(p, j)` is `∑ k, A (p, k) · B (k, j)`. -/
def prod0 (A : S50000x512.Idx → EReal) (B : S512x128.Idx → EReal) : S50000x128.Idx → EReal :=
  fun i => ∑ k : Fin 512, A (lhsAt0 ⟨(i 0).val, (i 0).isLt⟩ k) * B (rhsAt0 k ⟨(i 1).val, (i 1).isLt⟩)

/-! ## The operand indices of the two products

With axis 1 of the left operand contracted against axis 0 of the right one, the operand indices at result index
`(p, j)` and contraction index `k` are `(p, k)` and `(k, j)`: for the block product and for the host's. -/

theorem blk0_lhs_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem blk0_lhs_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem blk0_rhs_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem blk0_rhs_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

theorem host0_lhs_0 (i : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.lhsIdx i q 0).val = (i 0).val := by
  unfold DotDims.lhsIdx
  rw [dif_neg (show ¬(0 : Fin Cert.ReferenceIdeal.S50000x512.rank) ∈ Cert.ReferenceIdeal.dot_S50000x512_S512x128_S50000x128_1_0_0_1_n_n.lhsBatch by decide), dif_pos (show (0 : Fin Cert.ReferenceIdeal.S50000x512.rank) ∈ Cert.ReferenceIdeal.dot_S50000x512_S512x128_S50000x128_1_0_0_1_n_n.lhsNonContracting by decide)]
  rfl
theorem host0_lhs_1 (i : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.lhsIdx i q 1).val = (q ⟨0, by decide⟩).val :=
  Cert.ReferenceIdeal.dot_S50000x512_S512x128_S50000x128_1_0_0_1_n_n.lhsIdx_val_of_single rfl i q
theorem host0_rhs_0 (i : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.rhsIdx i q 0).val = (q ⟨0, by decide⟩).val :=
  Cert.ReferenceIdeal.dot_S50000x512_S512x128_S50000x128_1_0_0_1_n_n.rhsIdx_val_of_single rfl i q
theorem host0_rhs_1 (i : Cert.ReferenceIdeal.S50000x128.Idx) (q : Cert.ReferenceIdeal.dot_S50000x512_S512x128_S50000x128_1_0_0_1_n_n.contr.Idx) :
    (Cert.ReferenceIdeal.dot_S50000x512_S512x128_S50000x128_1_0_0_1_n_n.rhsIdx i q 1).val = (i 1).val := by
  unfold DotDims.rhsIdx
  rw [dif_neg (show ¬(1 : Fin Cert.ReferenceIdeal.S512x128.rank) ∈ Cert.ReferenceIdeal.dot_S50000x512_S512x128_S50000x128_1_0_0_1_n_n.rhsBatch by decide), dif_pos (show (1 : Fin Cert.ReferenceIdeal.S512x128.rank) ∈ Cert.ReferenceIdeal.dot_S50000x512_S512x128_S50000x128_1_0_0_1_n_n.rhsNonContracting by decide)]
  rfl

/-! ## The body's payload at an index -/

/-- The block product at an index: the narrowing to bf16 is the identity at the extended reals and the accumulator
    is the zero block, so it is the plain sum of products over the contracted axis. -/
theorem pay0_apply (x0 : Vec Ideal S5000x512 .f32) (x1 : Vec Ideal S512x128 .f32) (j : S5000x128.Idx) :
    k0_pay1 (F := Ideal) x0 x1 j
      = ∑ k : Fin 512, x0 (lblkAt0 ⟨(j 0).val, (j 0).isLt⟩ k) * x1 (rhsAt0 k ⟨(j 1).val, (j 1).isLt⟩) := by
  unfold k0_pay1
  dsimp only
  refine (Ideal.matmul_constant_zero_apply dot_S5000x512_S512x128_S5000x128_1_0_0_1_n_n none _ _ j).trans ?_
  rw [← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx j ((ValueIdx.contrEquiv1 dot_S5000x512_S512x128_S5000x128_1_0_0_1_n_n 512 rfl rfl).symm k) = lblkAt0 ⟨(j 0).val, (j 0).isLt⟩ k := funext fun a => Fin.ext (by
    match a with
    | ⟨0, _⟩ => exact blk0_lhs_0 _ _
    | ⟨1, _⟩ => exact (blk0_lhs_1 _ _).trans hk)
  have er : dot_S5000x512_S512x128_S5000x128_1_0_0_1_n_n.rhsIdx j ((ValueIdx.contrEquiv1 dot_S5000x512_S512x128_S5000x128_1_0_0_1_n_n 512 rfl rfl).symm k) = rhsAt0 k ⟨(j 1).val, (j 1).isLt⟩ := funext fun a => Fin.ext (by
    match a with
    | ⟨0, _⟩ => exact (blk0_rhs_0 _ _).trans hk
    | ⟨1, _⟩ => exact blk0_rhs_1 _ _)
  rw [el, er]
  rfl

/-- The host's `dot_general` of the two whole arrays at an index is the same sum. -/
theorem host0_apply (A : S50000x512.Idx → EReal) (B : S512x128.Idx → EReal) (i : S50000x128.Idx) :
    Host.dotGeneral (F := Ideal) (φ₁ := .f32) (φ₂ := .f32) Cert.ReferenceIdeal.dot_S50000x512_S512x128_S50000x128_1_0_0_1_n_n none A B i = prod0 A B i := by
  unfold prod0
  simp only [Host.dotGeneral]
  rw [Ideal.dotGeneral_apply]
  rw [← Equiv.sum_comp (ValueIdx.contrEquiv1 Cert.ReferenceIdeal.dot_S50000x512_S512x128_S50000x128_1_0_0_1_n_n 512 rfl rfl).symm]
  refine Finset.sum_congr rfl fun k _ => ?_
  have hk := ValueIdx.contrEquiv1_symm_val Cert.ReferenceIdeal.dot_S50000x512_S512x128_S50000x128_1_0_0_1_n_n 512 rfl rfl k
  have el : Cert.ReferenceIdeal.dot_S50000x512_S512x128_S50000x128_1_0_0_1_n_n.lhsIdx i ((ValueIdx.contrEquiv1 Cert.ReferenceIdeal.dot_S50000x512_S512x128_S50000x128_1_0_0_1_n_n 512 rfl rfl).symm k) = lhsAt0 ⟨(i 0).val, (i 0).isLt⟩ k := funext fun a => Fin.ext (by
    match a with
    | ⟨0, _⟩ => exact host0_lhs_0 _ _
    | ⟨1, _⟩ => exact (host0_lhs_1 _ _).trans hk)
  have er : Cert.ReferenceIdeal.dot_S50000x512_S512x128_S50000x128_1_0_0_1_n_n.rhsIdx i ((ValueIdx.contrEquiv1 Cert.ReferenceIdeal.dot_S50000x512_S512x128_S50000x128_1_0_0_1_n_n 512 rfl rfl).symm k) = rhsAt0 k ⟨(i 1).val, (i 1).isLt⟩ := funext fun a => Fin.ext (by
    match a with
    | ⟨0, _⟩ => exact (host0_rhs_0 _ _).trans hk
    | ⟨1, _⟩ => exact host0_rhs_1 _ _)
  rw [el, er]

/-! ## From the ten row blocks to the array -/

variable (V : (c : Dev nD) → (b : Ref sig .tc) → Buf (Elt Ideal) ((c : Thread nD τ).loc b))

theorem zeroOff0 : (![0, 0] : Fin 2 → Nat) = fun _ => 0 := funext fun a => by fin_cases a <;> rfl

/-- The printed index maps, decided over the ten points: the left operand's and the result's block move down the
    rows with the point, in the one block column; the right operand is the one block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000 t … 5000 t + 4999` of the array. -/
theorem lhsBlock0_apply (c : Dev nD) (t : Fin cfg0.N) (x : S5000x512.Idx) (i : S50000x512.Idx)
    (h0 : (i 0).val = t.val * 5000 + (x 0).val) (h1 : (i 1).val = (x 1).val) :
    (iblk0 V c 0 t : Vec Ideal S5000x512 .f32) x = (V c main_arg0 : S50000x512.Idx → EReal) i := by
  obtain ⟨e0, e1, -, -, -, -⟩ := blockIdx0 t
  unfold iblk0
  rw [View.read_apply]
  show (V c main_arg0 : S50000x512.Idx → EReal) _ = _
  congr 1
  funext a
  apply Fin.ext
  match a with
  | ⟨0, _⟩ => show win0_0.index t (0 : Fin 2) * 5000 + 1 * (x 0).val = (i 0).val; rw [e0, h0]; omega
  | ⟨1, _⟩ => show win0_0.index t (1 : Fin 2) * 512 + 1 * (x 1).val = (i 1).val; rw [e1, h1]; omega

/-- The right operand's block at every point is the whole array. -/
theorem rhsBlock0_apply (c : Dev nD) (t : Fin cfg0.N) (x : S512x128.Idx) :
    (iblk0 V c 1 t : Vec Ideal S512x128 .f32) x = (V c main_arg2 : S512x128.Idx → EReal) x := by
  obtain ⟨-, -, e2, e3, -, -⟩ := blockIdx0 t
  unfold iblk0
  rw [View.read_apply]
  show (V c main_arg2 : S512x128.Idx → EReal) _ = _
  congr 1
  funext a
  apply Fin.ext
  match a with
  | ⟨0, _⟩ => show win0_1.index t (0 : Fin 2) * 512 + 1 * (x 0).val = (x 0).val; rw [e2]; omega
  | ⟨1, _⟩ => show win0_1.index t (1 : Fin 2) * 128 + 1 * (x 1).val = (x 1).val; rw [e3]; omega

/-- What point `t` writes back is block `t` of the product of the two arrays as the region finds them. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zeroOff0]
  simp only [View.ld_unit_zero (S := S5000x512) zeroOff0, View.ld_unit_zero (S := S512x128) zeroOff0]
  obtain ⟨-, -, -, -, e4, e5⟩ := blockIdx0 t
  funext j
  show k0_pay1 (F := Ideal) (iblk0 V c 0 t) (iblk0 V c 1 t) j = prod0 (V c main_arg0) (V c main_arg2) (((cfg0.win 2).blk t).view.emb j)
  refine (pay0_apply (iblk0 V c 0 t) (iblk0 V c 1 t) j).trans ?_
  unfold prod0
  refine Finset.sum_congr rfl fun k _ => ?_
  have hj0 : (j 0).val < 5000 := (j 0).isLt
  have hj1 : (j 1).val < 128 := (j 1).isLt
  have r0 : ((((cfg0.win 2).blk t).view.emb j) 0).val = t.val * 5000 + (j 0).val := by
    show win0_2.index t (0 : Fin 2) * 5000 + 1 * (j 0).val = _; rw [e4]; omega
  have r1 : ((((cfg0.win 2).blk t).view.emb j) 1).val = (j 1).val := by
    show win0_2.index t (1 : Fin 2) * 128 + 1 * (j 1).val = _; rw [e5]; omega
  rw [lhsBlock0_apply V c t _ (lhsAt0 ⟨((((cfg0.win 2).blk t).view.emb j) 0).val, ((((cfg0.win 2).blk t).view.emb j) 0).isLt⟩ k) r0 rfl,
    rhsBlock0_apply V c t]
  congr 2
  funext a
  apply Fin.ext
  match a with
  | ⟨0, _⟩ => rfl
  | ⟨1, _⟩ => exact r1.symm

/-- An index of the result array is in point `t`'s block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v45).slice (win0_2.rect t)).set ↔ _
  rw [View.set_slice_whole, Rect.mem_set_unit]
  exact Iff.rfl

/-- The ten blocks tile the 50000 rows: row `r` is in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have ht : t.val = (i 0).val / 5000 := rfl
  obtain ⟨-, -, -, -, e4, e5⟩ := blockIdx0 t
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The result array after the region: the product of the two arrays as the region finds them. -/
theorem final0_prod (c : Dev nD) :
    (dat0 V c).arrAt 2 cfg0.N = prod0 (V c main_arg0) (V c main_arg2) :=
  (dat0 V c).arrAt_eq_of_cover 2 (prod0 (V c main_arg0) (V c main_arg2)) (fun t _ => flushed0_eq V c t) cover0

/-- The result array after the region is the host's `dot_general` of the two arrays as the region finds them. -/
theorem final0 (c : Dev nD) :
    (dat0 (F := Ideal) V c).arrAt 2 cfg0.N
      = Host.dotGeneral (F := Ideal) (φ₁ := .f32) (φ₂ := .f32) Cert.ReferenceIdeal.dot_S50000x512_S512x128_S50000x128_1_0_0_1_n_n none (V c main_arg0) (V c main_arg2) :=
  (final0_prod V c).trans (funext fun i => (host0_apply (V c main_arg0) (V c main_arg2) i).symm)

end Cert.KernelIdeal.Dense

end
-- ==== Proof.DenseBlock2.lean ====
import proofs.«167507_j52218212385223_1_alg».proof.Proof.Gen.KernelIdeal.Frame
import proofs.«167507_j52218212385223_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

/-! # The second dense layer: a [50000,128] array times a [128,64] array, 5000 rows at a time

The region's grid has ten points. At point `t` the body reads rows `5000 t … 5000 t + 4999` of the left
operand (the array the region before it left) and the whole right operand, and stores their product
`∑ k, A (p, k) · B (k, j)` into rows `5000 t … 5000 t + 4999` of the result: the operands are narrowed to
bf16, which at the extended reals is the identity, and the accumulator is the zero block. The ten row blocks
tile the 50000 rows, so the result array ends holding the product of the two whole arrays, which is what the
host's `dot_general` of them is at every index. -/

noncomputable section

namespace Cert.KernelIdeal.Dense

open Idealize.ShloMosaic Idealize.ShloMosaic.TcCoe Idealize.SL.Sem Cert.KernelIdeal Cert.KernelIdeal.Gen
open Idealize.ShloMosaic.Pipeline (Dat)

/-! ## The product, index by index -/

/-- Row `r`, column `k` of the [50000,128] operand. -/
abbrev lhsAt2 (r : Fin 50000) (k : Fin 128) : S50000x128.Idx := fun a => match a with
  | ⟨0, _⟩ => ⟨r.val, r.isLt⟩
  | ⟨1, _⟩ => ⟨k.val, k.isLt⟩
/-- Row `k`, column `j` of the [128,64] operand. -/
abbrev rhsAt2 (k : Fin 128) (j : Fin 64) : S128x64.Idx := fun a => match a with
  | ⟨0, _⟩ => ⟨k.val, k.isLt⟩
  | ⟨1, _⟩ => ⟨j.val, j.isLt⟩
/-- Row `r`, column `k` of a [5000,128] block of the left operand. -/
abbrev lblkAt2 (r : Fin 5000) (k : Fin 128) : S5000x128.Idx := fun a => match a with
  | ⟨0, _⟩ => ⟨r.val, r.isLt⟩
  | ⟨1, _⟩ => ⟨k.val, k.isLt⟩

/-- The product of the two whole arrays: entry `(p, j)` is `∑ k, A (p, k) · B (k, j)`. -/
def prod2 (A : S50000x128.Idx → EReal) (B : S128x64.Idx → EReal) : S50000x64.Idx → EReal :=
  fun i => ∑ k : Fin 128, A (lhsAt2 ⟨(i 0).val, (i 0).isLt⟩ k) * B (rhsAt2 k ⟨(i 1).val, (i 1).isLt⟩)

/-! ## The operand indices of the two products

With axis 1 of the left operand contracted against axis 0 of the right one, the operand indices at result index
`(p, j)` and contraction index `k` are `(p, k)` and `(k, j)`: for the block product and for the host's. -/

theorem blk2_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem blk2_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem blk2_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem blk2_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem host2_lhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem host2_lhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem host2_rhs_0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem host2_rhs_1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-! ## The body's payload at an index -/

/-- The block product at an index: the reshape of the left block to its own shape is the identity, the narrowing
    to bf16 is the identity at the extended reals and the accumulator is the zero block, so it is the plain sum of
    products over the contracted axis. -/
theorem pay2_apply (x0 : Vec Ideal S5000x128 .f32) (x1 : Vec Ideal S128x64 .f32) (j : S5000x64.Idx) :
    k2_pay1 (F := Ideal) x0 x1 j
      = ∑ k : Fin 128, x0 (lblkAt2 ⟨(j 0).val, (j 0).isLt⟩ k) * x1 (rhsAt2 k ⟨(j 1).val, (j 1).isLt⟩) := by
  unfold k2_pay1
  dsimp only
  rw [shapeCast_self]
  refine (Ideal.matmul_constant_zero_apply dot_S5000x128_S128x64_S5000x64_1_0_0_1_n_n none _ _ j).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = lblkAt2 ⟨(j 0).val, (j 0).isLt⟩ k := funext fun a => Fin.ext (by
    match a with
    | ⟨0, _⟩ => exact blk2_lhs_0 _ _
    | ⟨1, _⟩ => exact (blk2_lhs_1 _ _).trans hk)
  have er : dot_S5000x128_S128x64_S5000x64_1_0_0_1_n_n.rhsIdx j ((ValueIdx.contrEquiv1 dot_S5000x128_S128x64_S5000x64_1_0_0_1_n_n 128 rfl rfl).symm k) = rhsAt2 k ⟨(j 1).val, (j 1).isLt⟩ := funext fun a => Fin.ext (by
    match a with
    | ⟨0, _⟩ => exact (blk2_rhs_0 _ _).trans hk
    | ⟨1, _⟩ => exact blk2_rhs_1 _ _)
  rw [el, er]
  rfl

/-- The host's `dot_general` of the two whole arrays at an index is the same sum. -/
theorem host2_apply (A : S50000x128.Idx → EReal) (B : S128x64.Idx → EReal) (i : S50000x64.Idx) :
    Host.dotGeneral (F := Ideal) (φ₁ := .f32) (φ₂ := .f32) Cert.ReferenceIdeal.dot_S50000x128_S128x64_S50000x64_1_0_0_1_n_n none A B i = prod2 A B i := by
  unfold prod2
  simp only [Host.dotGeneral]
  rw [Ideal.dotGeneral_apply]
  rw [← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = lhsAt2 ⟨(i 0).val, (i 0).isLt⟩ k := funext fun a => Fin.ext (by
    match a with
    | ⟨0, _⟩ => exact host2_lhs_0 _ _
    | ⟨1, _⟩ => exact (host2_lhs_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = rhsAt2 k ⟨(i 1).val, (i 1).isLt⟩ := funext fun a => Fin.ext (by
    match a with
    | ⟨0, _⟩ => exact (host2_rhs_0 _ _).trans hk
    | ⟨1, _⟩ => exact host2_rhs_1 _ _)
  rw [el, er]

/-! ## From the ten row blocks to the array -/

variable (V : (c : Dev nD) → (b : Ref sig .tc) → Buf (Elt Ideal) ((c : Thread nD τ).loc b))

theorem zeroOff2 : (![0, 0] : Fin 2 → Nat) = fun _ => 0 := funext fun a => by fin_cases a <;> rfl

/-- The printed index maps, decided over the ten points: the left operand's and the result's block move down the
    rows with the point, in the one block column; the right operand is the one block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000 t … 5000 t + 4999` of the array. -/
theorem lhsBlock2_apply (c : Dev nD) (t : Fin cfg2.N) (x : S5000x128.Idx) (i : S50000x128.Idx)
    (h0 : (i 0).val = t.val * 5000 + (x 0).val) (h1 : (i 1).val = (x 1).val) :
    (iblk2 V c 0 t : Vec Ideal S5000x128 .f32) x = (V c main_v60 : S50000x128.Idx → EReal) i := by
  obtain ⟨e0, e1, -, -, -, -⟩ := blockIdx2 t
  unfold iblk2
  rw [View.read_apply]
  show (V c main_v60 : S50000x128.Idx → EReal) _ = _
  congr 1
  funext a
  apply Fin.ext
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The right operand's block at every point is the whole array. -/
theorem rhsBlock2_apply (c : Dev nD) (t : Fin cfg2.N) (x : S128x64.Idx) :
    (iblk2 V c 1 t : Vec Ideal S128x64 .f32) x = (V c main_arg8 : S128x64.Idx → EReal) x := by
  obtain ⟨-, -, e2, e3, -, -⟩ := blockIdx2 t
  unfold iblk2
  rw [View.read_apply]
  show (V c main_arg8 : S128x64.Idx → EReal) _ = _
  congr 1
  funext a
  apply Fin.ext
  match a with
  | ⟨0, _⟩ => show win2_1.index t (0 : Fin 2) * 128 + 1 * (x 0).val = (x 0).val; rw [e2]; omega
  | ⟨1, _⟩ => show win2_1.index t (1 : Fin 2) * 64 + 1 * (x 1).val = (x 1).val; rw [e3]; omega

/-- What point `t` writes back is block `t` of the product of the two arrays as the region finds them. -/
theorem flushed2_eq (c : Dev nD) (t : Fin cfg2.N) :
    (dat2 V c).flushed 2 t = ((cfg2.win 2).blk t).view.read (Elt Ideal) (prod2 (V c main_v60) (V c main_arg8)) := by
  show (cfg2.win 2).cut (grid2.coords t) ((dat2 V c).after 2 t) = _
  rw [after2_2]
  unfold out2_2
  rw [View.canon_unit_zero zeroOff2]
  simp only [View.ld_unit_zero (S := S5000x128) zeroOff2, View.ld_unit_zero (S := S128x64) zeroOff2]
  obtain ⟨-, -, -, -, e4, e5⟩ := blockIdx2 t
  funext j
  show k2_pay1 (F := Ideal) (iblk2 V c 0 t) (iblk2 V c 1 t) j = prod2 (V c main_v60) (V c main_arg8) (((cfg2.win 2).blk t).view.emb j)
  refine (pay2_apply (iblk2 V c 0 t) (iblk2 V c 1 t) j).trans ?_
  unfold prod2
  refine Finset.sum_congr rfl fun k _ => ?_
  have hj0 : (j 0).val < 5000 := (j 0).isLt
  have hj1 : (j 1).val < 64 := (j 1).isLt
  have r0 : ((((cfg2.win 2).blk t).view.emb j) 0).val = t.val * 5000 + (j 0).val := by
    show win2_2.index t (0 : Fin 2) * 5000 + 1 * (j 0).val = _; rw [e4]; omega
  have r1 : ((((cfg2.win 2).blk t).view.emb j) 1).val = (j 1).val := by
    show win2_2.index t (1 : Fin 2) * 64 + 1 * (j 1).val = _; rw [e5]; omega
  rw [lhsBlock2_apply V c t _ (lhsAt2 ⟨((((cfg2.win 2).blk t).view.emb j) 0).val, ((((cfg2.win 2).blk t).view.emb j) 0).isLt⟩ k) r0 rfl,
    rhsBlock2_apply V c t]
  congr 2
  funext a
  apply Fin.ext
  match a with
  | ⟨0, _⟩ => rfl
  | ⟨1, _⟩ => exact r1.symm

/-- An index of the result array is in point `t`'s block iff each coordinate is in the block's range on its axis. -/
theorem mem_block2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v61).slice (win2_2.rect t)).set ↔ _
  rw [View.set_slice_whole, Rect.mem_set_unit]
  exact Iff.rfl

/-- The ten blocks tile the 50000 rows: row `r` is in the block of point `r / 5000`. -/
theorem cover2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  have ht : t.val = (i 0).val / 5000 := rfl
  obtain ⟨-, -, -, -, e4, e5⟩ := blockIdx2 t
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- The result array after the region: the product of the two arrays as the region finds them. -/
theorem final2_prod (c : Dev nD) :
    (dat2 V c).arrAt 2 cfg2.N = prod2 (V c main_v60) (V c main_arg8) :=
  (dat2 V c).arrAt_eq_of_cover 2 (prod2 (V c main_v60) (V c main_arg8)) (fun t _ => flushed2_eq V c t) cover2

/-- The result array after the region is the host's `dot_general` of the two arrays as the region finds them. -/
theorem final2 (c : Dev nD) :
    (dat2 (F := Ideal) V c).arrAt 2 cfg2.N
      = Host.dotGeneral (F := Ideal) (φ₁ := .f32) (φ₂ := .f32) Cert.ReferenceIdeal.dot_S50000x128_S128x64_S50000x64_1_0_0_1_n_n none (V c main_v60) (V c main_arg8) :=
  (final2_prod V c).trans (funext fun i => (host2_apply (V c main_v60) (V c main_arg8) i).symm)

end Cert.KernelIdeal.Dense

end
-- ==== Proof.ScaleShiftBlock1.lean ====
import proofs.«167507_j52218212385223_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

/-! # Region 1: the scale-shift-relu block, index by index

The region's output array after its ten grid points is, at every index `i = (r, k)` of the `50000 × 128` array,
`max (x i * scale (0, k) + shift (0, k)) 0`, where `x`, `scale`, `shift` are the region's three input arrays as the
region finds them: each grid point `t` writes rows `5000 t … 5000 t + 4999`, and these ten blocks tile the array. -/

noncomputable section

namespace Cert.KernelIdeal.ScaleShift

open Cert.KernelIdeal Cert.KernelIdeal.Gen Idealize.ShloMosaic Idealize.ShloMosaic.TcCoe Idealize.SL.Sem
open Idealize.ShloMosaic.ValueIdx
open Idealize.ShloMosaic.Pipeline (Dat)

/-- The index `(0, k)` of the one-row arrays that index `(r, k)` of the full array reads. -/
def row128 (i : S50000x128.Idx) : S1x128.Idx := fun a => match a with
  | ⟨0, _⟩ => ⟨0, Nat.one_pos⟩
  | ⟨1, _⟩ => ⟨(i 1).val, (i 1).isLt⟩

theorem offsets_zero1 : (![0, 0] : Fin 2 → Nat) = fun _ => 0 := funext fun a => by fin_cases a <;> rfl

/-- The body's payload at the index `(p, q)` of a block: the block's element there times the scale row's element
    `(0, q)`, plus the shift row's, clamped below at zero. -/
theorem pay1_apply (x0 : Vec Ideal S5000x128 .f32) (x1 x2 : Vec Ideal S1x128 .f32) (p : Fin 5000) (q : Fin 128) :
    k1_pay1 x0 x1 x2 (ix2 p q)
      = max (x0 (ix2 p q) * x1 (ix2 (0 : Fin 1) q) + x2 (ix2 (0 : Fin 1) q)) (0 : EReal) := by
  unfold k1_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- What the output array holds in the end, as one function of the three input arrays. -/
abbrev G1 (a0 : S50000x128.Idx → Elt Ideal .f32) (a1 a2 : S1x128.Idx → Elt Ideal .f32) : S50000x128.Idx → Elt Ideal .f32 :=
  fun i => max (a0 i * a1 (row128 i) + a2 (row128 i)) (0 : EReal)

/-- The index maps over the grid: the input block moves with the output block, which is block `t` of the rows; the two
    one-row windows stay at block `(0, 0)`. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 :=
  (by decide +kernel : ∀ t : Fin grid1.N, _)

/-- Every block of rows is some grid point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

variable (V : (c : Dev nD) → (b : Ref sig .tc) → Buf (Elt Ideal) ((c : Thread nD τ).loc b))

/-- What grid point `t` writes back is block `t` of `G1` of the input arrays. -/
theorem flushed1_eq (c : Dev nD) (t : Fin cfg1.N) :
    (dat1 (F := Ideal) V c).flushed 3 t
      = ((cfg1.win 3).blk t).view.read (Elt Ideal) (G1 (V c main_v57) (V c main_v58) (V c main_v59)) := by
  show (cfg1.win 3).cut (grid1.coords t) ((dat1 (F := Ideal) V c).after 3 t) = _
  rw [after1_3]
  unfold out1_3
  rw [View.canon_unit_zero offsets_zero1]
  simp only [View.ld_unit_zero (S := S5000x128) offsets_zero1, View.ld_unit_zero (S := S1x128) offsets_zero1]
  obtain ⟨e0, e1, e2, e3, e4, e5, e6⟩ := idx_facts1 t
  funext j
  show k1_pay1 (iblk1 V c 0 t) (iblk1 V c 1 t) (iblk1 V c 2 t) j
    = G1 (V c main_v57) (V c main_v58) (V c main_v59) (((cfg1.win 3).blk t).view.emb j)
  obtain ⟨p, q, rfl⟩ : ∃ (p : Fin 5000) (q : Fin 128), j = ix2 p q := ⟨j 0, j 1, eq_ix2 j⟩
  refine (pay1_apply (iblk1 V c 0 t) (iblk1 V c 1 t) (iblk1 V c 2 t) p q).trans ?_
  have h0 : iblk1 V c 0 t (ix2 p q) = V c main_v57 (((cfg1.win 3).blk t).view.emb (ix2 p q)) := by
    show V c main_v57 (((cfg1.win 0).blk t).view.emb (ix2 p q)) = V c main_v57 (((cfg1.win 3).blk t).view.emb (ix2 p q))
    refine congrArg (V c main_v57) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : iblk1 V c 1 t (ix2 (0 : Fin 1) q) = V c main_v58 (row128 (((cfg1.win 3).blk t).view.emb (ix2 p q))) := by
    show V c main_v58 (((cfg1.win 1).blk t).view.emb (ix2 (0 : Fin 1) q)) = _
    refine congrArg (V c main_v58) (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have h2 : iblk1 V c 2 t (ix2 (0 : Fin 1) q) = V c main_v59 (row128 (((cfg1.win 3).blk t).view.emb (ix2 p q))) := by
    show V c main_v59 (((cfg1.win 2).blk t).view.emb (ix2 (0 : Fin 1) q)) = _
    refine congrArg (V c main_v59) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v60).slice (win1_3.rect t)).set ↔ _
  rw [View.set_slice_whole, Rect.mem_set_unit]
  exact Iff.rfl

/-- The ten blocks tile the array: row `r` is in the block of point `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region, as one function of the three input arrays. -/
theorem final1_fun (c : Dev nD) :
    (dat1 (F := Ideal) V c).arrAt 3 cfg1.N = G1 (V c main_v57) (V c main_v58) (V c main_v59) :=
  (dat1 (F := Ideal) V c).arrAt_eq_of_cover 3 (G1 (V c main_v57) (V c main_v58) (V c main_v59))
    (fun t _ => flushed1_eq V c t) cover1

/-- The output array after the region, index by index (the product, the sum and the maximum are the extended reals'). -/
theorem final1 (c : Dev nD) (i : S50000x128.Idx) :
    (dat1 (F := Ideal) V c).arrAt 3 cfg1.N i
      = max (α := EReal) (HAdd.hAdd (α := EReal) (β := EReal) (γ := EReal)
          (HMul.hMul (α := EReal) (β := EReal) (γ := EReal) (V c main_v57 i) (V c main_v58 (row128 i)))
          (V c main_v59 (row128 i))) (0 : EReal) :=
  congrFun (final1_fun V c) i

end Cert.KernelIdeal.ScaleShift

end
-- ==== Proof.BatchNormFold.lean ====
import Mathlib.Data.EReal.Operations
import Mathlib.Analysis.SpecialFunctions.Pow.Real
import Idealize.ShloMosaic.PureOps.Ideal
import Idealize.ShloMosaic.PureOps.Ideal.Laws

/-! # Folding a batch normalisation into one scale and one shift, over the extended reals

`((a + b) - mu) * r * g + β = a * (g * r) + ((b - mu) * (g * r) + β)` for every extended real `a` and real
`b, mu, r, g, β`; and the reciprocal square root of a non-negative real plus the positive constant `1e-5`
(as its binary32 pattern denotes it) is a real. -/

noncomputable section

namespace Cert.BatchNorm

open Idealize.ShloMosaic

/-- With a real factor `c` and real shifts `s`, `β`: `(a + s) * c + β = a * c + (s * c + β)` for every
    extended real `a`. For real `a` this is distributivity; for `a = ±∞` both sides are `±∞` when `c ≠ 0`
    (the sign that of `±c`) and `β` when `c = 0`. -/
theorem affine (a : EReal) (s c β : ℝ) :
    (a + (s : EReal)) * (c : EReal) + (β : EReal) = a * (c : EReal) + ((s : EReal) * (c : EReal) + (β : EReal)) := by
  induction a using EReal.rec with
  | bot =>
    rw [EReal.bot_add]
    rcases lt_trichotomy c 0 with h | h | h
    · rw [EReal.bot_mul_coe_of_neg h, ← EReal.coe_mul, ← EReal.coe_add, EReal.top_add_coe, EReal.top_add_coe]
    · subst h
      simp
    · rw [EReal.bot_mul_coe_of_pos h, EReal.bot_add, EReal.bot_add]
  | coe x =>
    rw [← EReal.coe_add, ← EReal.coe_mul, ← EReal.coe_add, ← EReal.coe_mul, ← EReal.coe_mul, ← EReal.coe_add,
      ← EReal.coe_add]
    exact congrArg _ (by ring)
  | top =>
    rw [EReal.top_add_coe]
    rcases lt_trichotomy c 0 with h | h | h
    · rw [EReal.top_mul_coe_of_neg h, EReal.bot_add, EReal.bot_add]
    · subst h
      simp
    · rw [EReal.top_mul_coe_of_pos h, ← EReal.coe_mul, ← EReal.coe_add, EReal.top_add_coe, EReal.top_add_coe]

/-- The normalisation `((a + b) - mu) * r * g + β` is the affine map `a ↦ a * (g * r) + ((b - mu) * (g * r) + β)`,
    for every extended real `a`. -/
theorem fold (a : EReal) (b mu g β r : ℝ) :
    (((a + (b : EReal)) - (mu : EReal)) * (r : EReal)) * (g : EReal) + (β : EReal)
      = a * ((g : EReal) * (r : EReal)) + ((((b : EReal) - (mu : EReal)) * ((g : EReal) * (r : EReal))) + (β : EReal)) := by
  have hc : ((g : EReal) * (r : EReal)) = ((g * r : ℝ) : EReal) := (EReal.coe_mul g r).symm
  have hs : (a + (b : EReal)) - (mu : EReal) = a + ((b - mu : ℝ) : EReal) := by
    rw [EReal.coe_sub, sub_eq_add_neg, sub_eq_add_neg, add_assoc]
  rw [mul_assoc, mul_comm (r : EReal) (g : EReal), hc, hs, ← EReal.coe_sub]
  exact affine a (b - mu) (g * r) β

/-- The binary32 pattern `0x3727C5AC` (the float nearest `1e-5`) denotes the positive real `10995116 / 2 ^ 40`. -/
theorem eps_eq : Ideal.ofBits .f32 0x3727C5AC#32 = (((10995116 : ℝ) * (2 : ℝ) ^ (-40 : Int) : ℝ) : EReal) := by
  simp [Ideal.ofBits, Ideal.ieee, -EReal.coe_mul]

theorem eps_real : ∃ e : ℝ, 0 < e ∧ Ideal.ofBits .f32 0x3727C5AC#32 = (e : EReal) :=
  ⟨(10995116 : ℝ) * (2 : ℝ) ^ (-40 : Int), by positivity, eps_eq⟩

/-- The reciprocal square root of a positive real is a real. -/
theorem rsqrt_pos_real (x : ℝ) (hx : 0 < x) : Ideal.rsqrt (x : EReal) = (((Real.sqrt x)⁻¹ : ℝ) : EReal) := by
  rw [Ideal.rsqrt_coe, if_neg (not_lt.mpr hx.le), if_neg hx.ne']

theorem rsqrt_real (v : ℝ) (hv : 0 ≤ v) :
    ∃ r : ℝ, Ideal.rsqrt ((v : EReal) + Ideal.ofBits .f32 0x3727C5AC#32) = (r : EReal) := by
  obtain ⟨e, he, hE⟩ := eps_real
  refine ⟨(Real.sqrt (v + e))⁻¹, ?_⟩
  rw [hE, ← EReal.coe_add]
  exact rsqrt_pos_real (v + e) (by linarith)

end Cert.BatchNorm

end
-- ==== Proof.BatchNormLayer1.lean ====
import proofs.«167507_j52218212385223_1_alg».proof.Proof.ReadPatched
import proofs.«167507_j52218212385223_1_alg».proof.Proof.BatchNormFold
import proofs.«167507_j52218212385223_1_alg».proof.Proof.ScaleShiftBlock1
import proofs.«167507_j52218212385223_1_alg».proof.Proof.FoldedParams
import Idealize.ShloMosaic.Lib.ValueIdx
import Idealize.ShloMosaic.Lib.Pipeline.Value
import Idealize.ShloMosaic.Lib.ValueLayout
import Idealize.ShloMosaic.PureOps.Ideal.Laws

/-! # Hidden layer 1: the folded scale and shift against the reference's batch normalisation

At an index `(p, q)` of the `50000 × 128` array, with `A` the layer's aggregated product there (any extended real) and
`b, g, β, μ, v` the layer's real parameters at column `q` (`v ≥ 0`), the kernel's side is
`max (A · (g · rsqrt (v + ε)) + ((b − μ) · (g · rsqrt (v + ε)) + β)) 0` and the reference's is
`max ((((A + b) − μ) · rsqrt (v + ε)) · g + β) 0`; `rsqrt (v + ε)` is a real, and the two affine maps of `A` agree on
every extended real. -/

noncomputable section

namespace Cert.Layer

open Idealize.ShloMosaic Idealize.ShloMosaic.ValueIdx
open Cert.KernelIdeal Cert.KernelIdeal.Facts₀

/-- The one-row index that `(p, q)` reads is `(0, q)`. -/
theorem rowIdx128_ix2 (p : Fin 50000) (q : Fin 128) :
    Cert.KernelIdeal.ScaleShift.row128 (ix2 p q) = ix2 (0 : Fin 1) q := by
  funext a
  match a with
  | ⟨0, _⟩ => rfl
  | ⟨1, _⟩ => rfl

/-- A vector laid out as one row, read at the row index of `(p, q)`, is the vector at `q`. -/
theorem foldedRow128_apply (P : FVec Ideal S128 .f32) (p : Fin 50000) (q : Fin 128) :
    Cert.KernelIdeal.Folded.row128 P (Cert.KernelIdeal.ScaleShift.row128 (ix2 p q)) = P (ix1 q) := by
  unfold Cert.KernelIdeal.Folded.row128
  rw [rowIdx128_ix2]
  exact shapeCast_a_1a_apply P _ (0 : Fin 1) q

/-- The folded scale at column `q`: `g · rsqrt (v + ε)`. -/
theorem scale128_apply (g v : FVec Ideal S128 .f32) (q : Fin 128) :
    Cert.KernelIdeal.Folded.scale128 g v (ix1 q)
      = g (ix1 q) * Ideal.rsqrt (v (ix1 q) + Ideal.ofBits .f32 0x3727C5AC#32) := by
  unfold Cert.KernelIdeal.Folded.scale128
  rw [mulf_apply]
  show g (ix1 q) * FloatOps.hostUnary .rsqrt
      (v (ix1 q) + broadcastInDim S128 ![] bcast_S_S128 (constant (F := Ideal) S_ .f32 0x3727C5AC#32) (ix1 q)) = _
  rw [broadcastInDim_apply ![] bcast_S_S128 (constant (F := Ideal) S_ .f32 0x3727C5AC#32) (ix1 q) (fun a => a.elim0)
      (fun a => a.elim0), constant_apply, Ideal.hostUnary_rsqrt_def]

/-- The folded shift at column `q`: `(b − μ) · scale + β`. -/
theorem shift128_apply (b g β μ v : FVec Ideal S128 .f32) (q : Fin 128) :
    Cert.KernelIdeal.Folded.shift128 b g β μ v (ix1 q)
      = (b (ix1 q) - μ (ix1 q)) * Cert.KernelIdeal.Folded.scale128 g v (ix1 q) + β (ix1 q) := rfl

/-- The scale-shift-relu function of three arrays, at an index. -/
theorem G1_apply (a0 : S50000x128.Idx → Elt Ideal .f32) (a1 a2 : S1x128.Idx → Elt Ideal .f32) (i : S50000x128.Idx) :
    Cert.KernelIdeal.ScaleShift.G1 a0 a1 a2 i
      = max (a0 i * a1 (Cert.KernelIdeal.ScaleShift.row128 i) + a2 (Cert.KernelIdeal.ScaleShift.row128 i)) (0 : EReal) := rfl

open Cert.ReferenceIdeal.ReadP in
/-- The reference's normalised and clamped layer at `(p, q)`, from the aggregated product there and the parameters at
    column `q`. -/
theorem ref1_apply (x0 : FVec Ideal S50000x512 .f32) (x1 : IVec S2x800000 32) (x2 : FVec Ideal S512x128 .f32) (x3 x4 x5 x6 x7 : FVec Ideal S128 .f32)
    (p : Fin 50000) (q : Fin 128) :
    val_main_v62 (F := Ideal) x0 x1 x2 x3 x4 x5 x6 x7 (ix2 p q)
      = max (((((val_main_v43 (F := Ideal) x0 x1 x2 (ix2 p q) : EReal) + x3 (ix1 q)) - x6 (ix1 q))
            * Ideal.rsqrt (x7 (ix1 q) + Ideal.ofBits .f32 0x3727C5AC#32)) * x4 (ix1 q) + x5 (ix1 q)) (0 : EReal) := by
  have eb : idx_main_v44 (idx_main_v45 (ix2 p q)) = ix1 q := funext fun a => by match a with | ⟨0, _⟩ => rfl
  have em : idx_main_v47 (idx_main_v48 (ix2 p q)) = ix1 q := funext fun a => by match a with | ⟨0, _⟩ => rfl
  have ev : idx_main_v53 (idx_main_v54 (ix2 p q)) = ix1 q := funext fun a => by match a with | ⟨0, _⟩ => rfl
  have eg : idx_main_v56 (idx_main_v57 (ix2 p q)) = ix1 q := funext fun a => by match a with | ⟨0, _⟩ => rfl
  have eβ : idx_main_v59 (idx_main_v60 (ix2 p q)) = ix1 q := funext fun a => by match a with | ⟨0, _⟩ => rfl
  rw [val_main_v62_apply, val_main_v61_apply, val_main_v58_apply, val_main_v55_apply, val_main_v49_apply, val_main_v46_apply,
    val_main_v45_apply, val_main_v44_apply, eb, val_main_v48_apply, val_main_v47_apply, em,
    val_main_v54_apply, val_main_v53_apply, ev, val_main_v52_apply, val_main_v51_apply, val_main_v50_apply, val_main_cst_9_apply,
    val_main_v57_apply, val_main_v56_apply, eg, val_main_v60_apply, val_main_v59_apply, eβ,
    val_main_call1_v0_apply, val_main_call1_cst_apply]
  simp only [Ideal.maximumf_def, Ideal.addf_def, Ideal.mulf_def, Ideal.subf_def, Ideal.ofBits_def,
    Ideal.hostUnary_rsqrt_def, Ideal.ofBits_zero_f32]

/-- The kernel's folded layer equals the reference's normalised layer, as arrays. -/
theorem bn1 (x0 : FVec Ideal S50000x512 .f32) (x1 : IVec S2x800000 32) (x2 : FVec Ideal S512x128 .f32) (x3 x4 x5 x6 x7 : FVec Ideal S128 .f32)
    (h3 : ∀ j, ∃ r : ℝ, x3 j = (r : EReal)) (h4 : ∀ j, ∃ r : ℝ, x4 j = (r : EReal)) (h5 : ∀ j, ∃ r : ℝ, x5 j = (r : EReal)) (h6 : ∀ j, ∃ r : ℝ, x6 j = (r : EReal))
    (h7 : ∀ j, ∃ r : ℝ, 0 ≤ r ∧ x7 j = (r : EReal)) :
    Cert.KernelIdeal.ScaleShift.G1 (Cert.ReferenceIdeal.ReadP.val_main_v43 (F := Ideal) x0 x1 x2)
        (Cert.KernelIdeal.Folded.row128 (Cert.KernelIdeal.Folded.scale128 x4 x7))
        (Cert.KernelIdeal.Folded.row128 (Cert.KernelIdeal.Folded.shift128 x3 x4 x5 x6 x7))
      = Cert.ReferenceIdeal.ReadP.val_main_v62 (F := Ideal) x0 x1 x2 x3 x4 x5 x6 x7 := by
  funext i
  obtain ⟨p, q, rfl⟩ : ∃ (p : Fin 50000) (q : Fin 128), i = ix2 p q := ⟨i 0, i 1, eq_ix2 i⟩
  rw [ref1_apply, G1_apply, foldedRow128_apply, foldedRow128_apply, shift128_apply, scale128_apply]
  generalize Cert.ReferenceIdeal.ReadP.val_main_v43 (F := Ideal) x0 x1 x2 (ix2 p q) = A
  obtain ⟨b, hb⟩ := h3 (ix1 q)
  obtain ⟨g, hg⟩ := h4 (ix1 q)
  obtain ⟨β, hβ⟩ := h5 (ix1 q)
  obtain ⟨μ, hμ⟩ := h6 (ix1 q)
  obtain ⟨v, hv0, hv⟩ := h7 (ix1 q)
  obtain ⟨r, hr⟩ := Cert.BatchNorm.rsqrt_real v hv0
  rw [hb, hg, hβ, hμ, hv, hr]
  exact congrArg (fun z : EReal => max z (0 : EReal)) (Cert.BatchNorm.fold A b μ g β r).symm

end Cert.Layer

end
-- ==== Proof.Layer1Contents.lean ====
/-
  The first layer of the kernel program, buffer by buffer, against the reference's stages. Region 0 leaves the product
  x·w₁; the host aggregates it over the edges (gather by source, weight, scatter-add by destination) exactly as the
  reference does; region 1 applies the folded batch norm and the maximum against zero, which equals the reference's
  bias, normalisation and relu because the parameters are finite and the variance nonnegative; region 2 multiplies by w₂.
  Buffers that neither a region nor a host stretch writes are carried unchanged from one boundary to the next.
-/
import proofs.«167507_j52218212385223_1_alg».proof.Proof.Gen.KernelIdeal.Frame
import proofs.«167507_j52218212385223_1_alg».proof.Proof.ReadPatched
import proofs.«167507_j52218212385223_1_alg».proof.Proof.FoldedParams
import proofs.«167507_j52218212385223_1_alg».proof.Proof.EntryContents
import proofs.«167507_j52218212385223_1_alg».proof.Proof.DenseBlock0
import proofs.«167507_j52218212385223_1_alg».proof.Proof.DenseBlock2
import proofs.«167507_j52218212385223_1_alg».proof.Proof.ScaleShiftBlock1
import proofs.«167507_j52218212385223_1_alg».proof.Proof.BatchNormLayer1

set_option maxRecDepth 16384

noncomputable section

namespace Cert.KernelIdeal.Bound

open Cert.KernelIdeal Cert.KernelIdeal.Gen Cert.KernelIdeal.Facts₀
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)

/-! ## Region 0: the product x·w₁ -/

theorem prod1_4 : W4 m ρ c (Proc.devRef .tc main_v45) = val_main_v15 (F := Ideal) x0 x2 := by
  refine (W4_arr m ρ c 2).trans ?_
  rw [Cert.KernelIdeal.Dense.final0 (V3 m ρ) c]
  rw [show V3 m ρ c main_arg0 = x0 from arg0_3 m ρ c, show V3 m ρ c main_arg2 = x2 from arg2_3 m ρ c]
  rfl

/-! ## Carried to region 0's exit -/

theorem src4 : W4 m ρ c (Proc.devRef .tc main_v3) = val_main_v3 (F := Ideal) x1 :=
  (W4_of_ne m ρ c main_v3 (by decide)).trans (src3 m ρ c)
theorem dst4 : W4 m ρ c (Proc.devRef .tc main_v6) = val_main_v6 (F := Ideal) x1 :=
  (W4_of_ne m ρ c main_v6 (by decide)).trans (dst3 m ρ c)
theorem wt4 : W4 m ρ c (Proc.devRef .tc main_v30) = val_main_v38 (F := Ideal) x1 :=
  (W4_of_ne m ρ c main_v30 (by decide)).trans (wt3 m ρ c)
theorem scale1_4 : W4 m ρ c (Proc.devRef .tc main_v34) = Folded.scale128 x4 x7 :=
  (W4_of_ne m ρ c main_v34 (by decide)).trans (scale1_3 m ρ c)
theorem shift1_4 : W4 m ρ c (Proc.devRef .tc main_v37) = Folded.shift128 x3 x4 x5 x6 x7 :=
  (W4_of_ne m ρ c main_v37 (by decide)).trans (shift1_3 m ρ c)
theorem scale2_4 : W4 m ρ c (Proc.devRef .tc main_v41) = Folded.scale64 x10 x13 :=
  (W4_of_ne m ρ c main_v41 (by decide)).trans (scale2_3 m ρ c)
theorem shift2_4 : W4 m ρ c (Proc.devRef .tc main_v44) = Folded.shift64 x9 x10 x11 x12 x13 :=
  (W4_of_ne m ρ c main_v44 (by decide)).trans (shift2_3 m ρ c)
theorem arg8_4 : W4 m ρ c (Proc.devRef .tc main_arg8) = x8 :=
  (W4_of_ne m ρ c main_arg8 (by decide)).trans (arg8_3 m ρ c)
theorem arg14_4 : W4 m ρ c (Proc.devRef .tc main_arg14) = x14 :=
  (W4_of_ne m ρ c main_arg14 (by decide)).trans (arg14_3 m ρ c)
theorem arg15_4 : W4 m ρ c (Proc.devRef .tc main_arg15) = x15 :=
  (W4_of_ne m ρ c main_arg15 (by decide)).trans (arg15_3 m ρ c)

/-! ## The host stretch between regions 0 and 1: the aggregation, and the folded parameters as rows -/

theorem agg1_5 : W5 m ρ c (Proc.devRef .tc main_v57) = val_main_v43 (F := Ideal) x0 x1 x2 := by
  show StableHlo.after hostOps1 (W4 m ρ c) (Proc.devRef .tc main_v57) = _
  after_results_simp
  rw [prod1_4, src4, dst4, wt4]
  rfl

theorem scaleRow1_5 : W5 m ρ c (Proc.devRef .tc main_v58) = Folded.row128 (Folded.scale128 x4 x7) := by
  show StableHlo.after hostOps1 (W4 m ρ c) (Proc.devRef .tc main_v58) = _
  after_results_simp
  rw [scale1_4]
  rfl

theorem shiftRow1_5 : W5 m ρ c (Proc.devRef .tc main_v59) = Folded.row128 (Folded.shift128 x3 x4 x5 x6 x7) := by
  show StableHlo.after hostOps1 (W4 m ρ c) (Proc.devRef .tc main_v59) = _
  after_results_simp
  rw [shift1_4]
  rfl

theorem src5 : W5 m ρ c (Proc.devRef .tc main_v3) = val_main_v3 (F := Ideal) x1 := by
  refine Eq.trans ?_ (src4 m ρ c)
  show StableHlo.after hostOps1 (W4 m ρ c) (Proc.devRef .tc main_v3) = _
  after_results_simp
theorem dst5 : W5 m ρ c (Proc.devRef .tc main_v6) = val_main_v6 (F := Ideal) x1 := by
  refine Eq.trans ?_ (dst4 m ρ c)
  show StableHlo.after hostOps1 (W4 m ρ c) (Proc.devRef .tc main_v6) = _
  after_results_simp
theorem wt5 : W5 m ρ c (Proc.devRef .tc main_v30) = val_main_v38 (F := Ideal) x1 := by
  refine Eq.trans ?_ (wt4 m ρ c)
  show StableHlo.after hostOps1 (W4 m ρ c) (Proc.devRef .tc main_v30) = _
  after_results_simp
theorem scale2_5 : W5 m ρ c (Proc.devRef .tc main_v41) = Folded.scale64 x10 x13 := by
  refine Eq.trans ?_ (scale2_4 m ρ c)
  show StableHlo.after hostOps1 (W4 m ρ c) (Proc.devRef .tc main_v41) = _
  after_results_simp
theorem shift2_5 : W5 m ρ c (Proc.devRef .tc main_v44) = Folded.shift64 x9 x10 x11 x12 x13 := by
  refine Eq.trans ?_ (shift2_4 m ρ c)
  show StableHlo.after hostOps1 (W4 m ρ c) (Proc.devRef .tc main_v44) = _
  after_results_simp
theorem arg8_5 : W5 m ρ c (Proc.devRef .tc main_arg8) = x8 := by
  refine Eq.trans ?_ (arg8_4 m ρ c)
  show StableHlo.after hostOps1 (W4 m ρ c) (Proc.devRef .tc main_arg8) = _
  after_results_simp
theorem arg14_5 : W5 m ρ c (Proc.devRef .tc main_arg14) = x14 := by
  refine Eq.trans ?_ (arg14_4 m ρ c)
  show StableHlo.after hostOps1 (W4 m ρ c) (Proc.devRef .tc main_arg14) = _
  after_results_simp
theorem arg15_5 : W5 m ρ c (Proc.devRef .tc main_arg15) = x15 := by
  refine Eq.trans ?_ (arg15_4 m ρ c)
  show StableHlo.after hostOps1 (W4 m ρ c) (Proc.devRef .tc main_arg15) = _
  after_results_simp

/-! ## Region 1: the folded batch norm and the maximum against zero are the reference's bias, normalisation and relu -/

theorem act1_6 (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal)) :
    W6 m ρ c (Proc.devRef .tc main_v60) = val_main_v62 (F := Ideal) x0 x1 x2 x3 x4 x5 x6 x7 := by
  refine (W6_arr m ρ c 3).trans ?_
  rw [Cert.KernelIdeal.ScaleShift.final1_fun (V5 m ρ) c]
  rw [show V5 m ρ c main_v57 = _ from agg1_5 m ρ c, show V5 m ρ c main_v58 = _ from scaleRow1_5 m ρ c,
    show V5 m ρ c main_v59 = _ from shiftRow1_5 m ρ c]
  exact Cert.Layer.bn1 x0 x1 x2 x3 x4 x5 x6 x7 h3 h4 h5 h6 h7

/-! ## Region 2: the product with w₂ -/

theorem prod2_7 (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal)) :
    W7 m ρ c (Proc.devRef .tc main_v61) = val_main_v63 (F := Ideal) x0 x1 x2 x3 x4 x5 x6 x7 x8 := by
  refine (W7_arr m ρ c 2).trans ?_
  rw [Cert.KernelIdeal.Dense.final2 (V6 m ρ) c]
  rw [show V6 m ρ c main_v60 = _ from act1_6 m ρ c h3 h4 h5 h6 h7,
    show V6 m ρ c main_arg8 = x8 from (W6_of_ne m ρ c main_arg8 (by decide)).trans (arg8_5 m ρ c)]
  rfl

/-! ## Carried to region 2's exit -/

theorem src7 : W7 m ρ c (Proc.devRef .tc main_v3) = val_main_v3 (F := Ideal) x1 :=
  (W7_of_ne m ρ c main_v3 (by decide)).trans ((W6_of_ne m ρ c main_v3 (by decide)).trans (src5 m ρ c))
theorem dst7 : W7 m ρ c (Proc.devRef .tc main_v6) = val_main_v6 (F := Ideal) x1 :=
  (W7_of_ne m ρ c main_v6 (by decide)).trans ((W6_of_ne m ρ c main_v6 (by decide)).trans (dst5 m ρ c))
theorem wt7 : W7 m ρ c (Proc.devRef .tc main_v30) = val_main_v38 (F := Ideal) x1 :=
  (W7_of_ne m ρ c main_v30 (by decide)).trans ((W6_of_ne m ρ c main_v30 (by decide)).trans (wt5 m ρ c))
theorem scale2_7 : W7 m ρ c (Proc.devRef .tc main_v41) = Folded.scale64 x10 x13 :=
  (W7_of_ne m ρ c main_v41 (by decide)).trans ((W6_of_ne m ρ c main_v41 (by decide)).trans (scale2_5 m ρ c))
theorem shift2_7 : W7 m ρ c (Proc.devRef .tc main_v44) = Folded.shift64 x9 x10 x11 x12 x13 :=
  (W7_of_ne m ρ c main_v44 (by decide)).trans ((W6_of_ne m ρ c main_v44 (by decide)).trans (shift2_5 m ρ c))
theorem arg14_7 : W7 m ρ c (Proc.devRef .tc main_arg14) = x14 :=
  (W7_of_ne m ρ c main_arg14 (by decide)).trans ((W6_of_ne m ρ c main_arg14 (by decide)).trans (arg14_5 m ρ c))
theorem arg15_7 : W7 m ρ c (Proc.devRef .tc main_arg15) = x15 :=
  (W7_of_ne m ρ c main_arg15 (by decide)).trans ((W6_of_ne m ρ c main_arg15 (by decide)).trans (arg15_5 m ρ c))

end Cert.KernelIdeal.Bound

end
-- ==== Proof.DenseBlock4.lean ====
import proofs.«167507_j52218212385223_1_alg».proof.Proof.Gen.KernelIdeal.Frame
import proofs.«167507_j52218212385223_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

/-! # The third dense layer: a [50000,64] array times a [64,2] array, 5000 rows at a time

The region's grid has ten points. At point `t` the body reads rows `5000 t … 5000 t + 4999` of the left
operand (the array the region before it left) and the whole right operand, and stores their product
`∑ k, A (p, k) · B (k, j)` into rows `5000 t … 5000 t + 4999` of the result: the operands are narrowed to
bf16, which at the extended reals is the identity, and the accumulator is the zero block. The ten row blocks
tile the 50000 rows, so the result array ends holding the product of the two whole arrays, which is what the
host's `dot_general` of them is at every index. -/

noncomputable section

namespace Cert.KernelIdeal.Dense

open Idealize.ShloMosaic Idealize.ShloMosaic.TcCoe Idealize.SL.Sem Cert.KernelIdeal Cert.KernelIdeal.Gen
open Idealize.ShloMosaic.Pipeline (Dat)

/-! ## The product, index by index -/

/-- Row `r`, column `k` of the [50000,64] operand. -/
abbrev lhsAt4 (r : Fin 50000) (k : Fin 64) : S50000x64.Idx := fun a => match a with
  | ⟨0, _⟩ => ⟨r.val, r.isLt⟩
  | ⟨1, _⟩ => ⟨k.val, k.isLt⟩
/-- Row `k`, column `j` of the [64,2] operand. -/
abbrev rhsAt4 (k : Fin 64) (j : Fin 2) : S64x2.Idx := fun a => match a with
  | ⟨0, _⟩ => ⟨k.val, k.isLt⟩
  | ⟨1, _⟩ => ⟨j.val, j.isLt⟩
/-- Row `r`, column `k` of a [5000,64] block of the left operand. -/
abbrev lblkAt4 (r : Fin 5000) (k : Fin 64) : S5000x64.Idx := fun a => match a with
  | ⟨0, _⟩ => ⟨r.val, r.isLt⟩
  | ⟨1, _⟩ => ⟨k.val, k.isLt⟩

/-- The product of the two whole arrays: entry `(p, j)` is `∑ k, A (p, k) · B (k, j)`. -/
def prod4 (A : S50000x64.Idx → EReal) (B : S64x2.Idx → EReal) : S50000x2.Idx → EReal :=
  fun i => ∑ k : Fin 64, A (lhsAt4 ⟨(i 0).val, (i 0).isLt⟩ k) * B (rhsAt4 k ⟨(i 1).val, (i 1).isLt⟩)

/-! ## The operand indices of the two products

With axis 1 of the left operand contracted against axis 0 of the right one, the operand indices at result index
`(p, j)` and contraction index `k` are `(p, k)` and `(k, j)`: for the block product and for the host's. -/

theorem blk4_lhs_0 (i : S5000x2.Idx) (q : dot_S5000x64_S64x2_S5000x2_1_0_0_1_n_n.contr.Idx) :
    (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem blk4_lhs_1 (i : S5000x2.Idx) (q : dot_S5000x64_S64x2_S5000x2_1_0_0_1_n_n.contr.Idx) :
    (dot_S5000x64_S64x2_S5000x2_1_0_0_1_n_n.lhsIdx i q 1).val = (q ⟨0, by decide⟩).val :=
  dot_S5000x64_S64x2_S5000x2_1_0_0_1_n_n.lhsIdx_val_of_single rfl i q
theorem blk4_rhs_0 (i : S5000x2.Idx) (q : dot_S5000x64_S64x2_S5000x2_1_0_0_1_n_n.contr.Idx) :
    (dot_S5000x64_S64x2_S5000x2_1_0_0_1_n_n.rhsIdx i q 0).val = (q ⟨0, by decide⟩).val :=
  dot_S5000x64_S64x2_S5000x2_1_0_0_1_n_n.rhsIdx_val_of_single rfl i q
theorem blk4_rhs_1 (i : S5000x2.Idx) (q : dot_S5000x64_S64x2_S5000x2_1_0_0_1_n_n.contr.Idx) :
    (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

theorem host4_lhs_0 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x2_S50000x2_1_0_0_1_n_n.lhsBatch by decide), dif_pos (show (0 : Fin Cert.ReferenceIdeal.S50000x64.rank) ∈ Cert.ReferenceIdeal.dot_S50000x64_S64x2_S50000x2_1_0_0_1_n_n.lhsNonContracting by decide)]
  rfl
theorem host4_lhs_1 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.lhsIdx i q 1).val = (q ⟨0, by decide⟩).val :=
  Cert.ReferenceIdeal.dot_S50000x64_S64x2_S50000x2_1_0_0_1_n_n.lhsIdx_val_of_single rfl i q
theorem host4_rhs_0 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.rhsIdx i q 0).val = (q ⟨0, by decide⟩).val :=
  Cert.ReferenceIdeal.dot_S50000x64_S64x2_S50000x2_1_0_0_1_n_n.rhsIdx_val_of_single rfl i q
theorem host4_rhs_1 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.rhsIdx i q 1).val = (i 1).val := by
  unfold DotDims.rhsIdx
  rw [dif_neg (show ¬(1 : Fin Cert.ReferenceIdeal.S64x2.rank) ∈ Cert.ReferenceIdeal.dot_S50000x64_S64x2_S50000x2_1_0_0_1_n_n.rhsBatch by decide), dif_pos (show (1 : Fin Cert.ReferenceIdeal.S64x2.rank) ∈ Cert.ReferenceIdeal.dot_S50000x64_S64x2_S50000x2_1_0_0_1_n_n.rhsNonContracting by decide)]
  rfl

/-! ## The body's payload at an index -/

/-- The block product at an index: the reshape of the left block to its own shape is the identity, the narrowing
    to bf16 is the identity at the extended reals and the accumulator is the zero block, so it is the plain sum of
    products over the contracted axis. -/
theorem pay4_apply (x0 : Vec Ideal S5000x64 .f32) (x1 : Vec Ideal S64x2 .f32) (j : S5000x2.Idx) :
    k4_pay1 (F := Ideal) x0 x1 j
      = ∑ k : Fin 64, x0 (lblkAt4 ⟨(j 0).val, (j 0).isLt⟩ k) * x1 (rhsAt4 k ⟨(j 1).val, (j 1).isLt⟩) := by
  unfold k4_pay1
  dsimp only
  rw [shapeCast_self]
  refine (Ideal.matmul_constant_zero_apply dot_S5000x64_S64x2_S5000x2_1_0_0_1_n_n none _ _ j).trans ?_
  rw [← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx j ((ValueIdx.contrEquiv1 dot_S5000x64_S64x2_S5000x2_1_0_0_1_n_n 64 rfl rfl).symm k) = lblkAt4 ⟨(j 0).val, (j 0).isLt⟩ k := funext fun a => Fin.ext (by
    match a with
    | ⟨0, _⟩ => exact blk4_lhs_0 _ _
    | ⟨1, _⟩ => exact (blk4_lhs_1 _ _).trans hk)
  have er : dot_S5000x64_S64x2_S5000x2_1_0_0_1_n_n.rhsIdx j ((ValueIdx.contrEquiv1 dot_S5000x64_S64x2_S5000x2_1_0_0_1_n_n 64 rfl rfl).symm k) = rhsAt4 k ⟨(j 1).val, (j 1).isLt⟩ := funext fun a => Fin.ext (by
    match a with
    | ⟨0, _⟩ => exact (blk4_rhs_0 _ _).trans hk
    | ⟨1, _⟩ => exact blk4_rhs_1 _ _)
  rw [el, er]
  rfl

/-- The host's `dot_general` of the two whole arrays at an index is the same sum. -/
theorem host4_apply (A : S50000x64.Idx → EReal) (B : S64x2.Idx → EReal) (i : S50000x2.Idx) :
    Host.dotGeneral (F := Ideal) (φ₁ := .f32) (φ₂ := .f32) Cert.ReferenceIdeal.dot_S50000x64_S64x2_S50000x2_1_0_0_1_n_n none A B i = prod4 A B i := by
  unfold prod4
  simp only [Host.dotGeneral]
  rw [Ideal.dotGeneral_apply]
  rw [← Equiv.sum_comp (ValueIdx.contrEquiv1 Cert.ReferenceIdeal.dot_S50000x64_S64x2_S50000x2_1_0_0_1_n_n 64 rfl rfl).symm]
  refine Finset.sum_congr rfl fun k _ => ?_
  have hk := ValueIdx.contrEquiv1_symm_val Cert.ReferenceIdeal.dot_S50000x64_S64x2_S50000x2_1_0_0_1_n_n 64 rfl rfl k
  have el : Cert.ReferenceIdeal.dot_S50000x64_S64x2_S50000x2_1_0_0_1_n_n.lhsIdx i ((ValueIdx.contrEquiv1 Cert.ReferenceIdeal.dot_S50000x64_S64x2_S50000x2_1_0_0_1_n_n 64 rfl rfl).symm k) = lhsAt4 ⟨(i 0).val, (i 0).isLt⟩ k := funext fun a => Fin.ext (by
    match a with
    | ⟨0, _⟩ => exact host4_lhs_0 _ _
    | ⟨1, _⟩ => exact (host4_lhs_1 _ _).trans hk)
  have er : Cert.ReferenceIdeal.dot_S50000x64_S64x2_S50000x2_1_0_0_1_n_n.rhsIdx i ((ValueIdx.contrEquiv1 Cert.ReferenceIdeal.dot_S50000x64_S64x2_S50000x2_1_0_0_1_n_n 64 rfl rfl).symm k) = rhsAt4 k ⟨(i 1).val, (i 1).isLt⟩ := funext fun a => Fin.ext (by
    match a with
    | ⟨0, _⟩ => exact (host4_rhs_0 _ _).trans hk
    | ⟨1, _⟩ => exact host4_rhs_1 _ _)
  rw [el, er]

/-! ## From the ten row blocks to the array -/

variable (V : (c : Dev nD) → (b : Ref sig .tc) → Buf (Elt Ideal) ((c : Thread nD τ).loc b))

theorem zeroOff4 : (![0, 0] : Fin 2 → Nat) = fun _ => 0 := funext fun a => by fin_cases a <;> rfl

/-- The printed index maps, decided over the ten points: the left operand's and the result's block move down the
    rows with the point, in the one block column; the right operand is the one block (0, 0). -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t` is rows `5000 t … 5000 t + 4999` of the array. -/
theorem lhsBlock4_apply (c : Dev nD) (t : Fin cfg4.N) (x : S5000x64.Idx) (i : S50000x64.Idx)
    (h0 : (i 0).val = t.val * 5000 + (x 0).val) (h1 : (i 1).val = (x 1).val) :
    (iblk4 V c 0 t : Vec Ideal S5000x64 .f32) x = (V c main_v76 : S50000x64.Idx → EReal) i := by
  obtain ⟨e0, e1, -, -, -, -⟩ := blockIdx4 t
  unfold iblk4
  rw [View.read_apply]
  show (V c main_v76 : S50000x64.Idx → EReal) _ = _
  congr 1
  funext a
  apply Fin.ext
  match a with
  | ⟨0, _⟩ => show win4_0.index t (0 : Fin 2) * 5000 + 1 * (x 0).val = (i 0).val; rw [e0, h0]; omega
  | ⟨1, _⟩ => show win4_0.index t (1 : Fin 2) * 64 + 1 * (x 1).val = (i 1).val; rw [e1, h1]; omega

/-- The right operand's block at every point is the whole array. -/
theorem rhsBlock4_apply (c : Dev nD) (t : Fin cfg4.N) (x : S64x2.Idx) :
    (iblk4 V c 1 t : Vec Ideal S64x2 .f32) x = (V c main_arg14 : S64x2.Idx → EReal) x := by
  obtain ⟨-, -, e2, e3, -, -⟩ := blockIdx4 t
  unfold iblk4
  rw [View.read_apply]
  show (V c main_arg14 : S64x2.Idx → EReal) _ = _
  congr 1
  funext a
  apply Fin.ext
  match a with
  | ⟨0, _⟩ => show win4_1.index t (0 : Fin 2) * 64 + 1 * (x 0).val = (x 0).val; rw [e2]; omega
  | ⟨1, _⟩ => show win4_1.index t (1 : Fin 2) * 2 + 1 * (x 1).val = (x 1).val; rw [e3]; omega

/-- What point `t` writes back is block `t` of the product of the two arrays as the region finds them. -/
theorem flushed4_eq (c : Dev nD) (t : Fin cfg4.N) :
    (dat4 V c).flushed 2 t = ((cfg4.win 2).blk t).view.read (Elt Ideal) (prod4 (V c main_v76) (V c main_arg14)) := by
  show (cfg4.win 2).cut (grid4.coords t) ((dat4 V c).after 2 t) = _
  rw [after4_2]
  unfold out4_2
  rw [View.canon_unit_zero zeroOff4]
  simp only [View.ld_unit_zero (S := S5000x64) zeroOff4, View.ld_unit_zero (S := S64x2) zeroOff4]
  obtain ⟨-, -, -, -, e4, e5⟩ := blockIdx4 t
  funext j
  show k4_pay1 (F := Ideal) (iblk4 V c 0 t) (iblk4 V c 1 t) j = prod4 (V c main_v76) (V c main_arg14) (((cfg4.win 2).blk t).view.emb j)
  refine (pay4_apply (iblk4 V c 0 t) (iblk4 V c 1 t) j).trans ?_
  unfold prod4
  refine Finset.sum_congr rfl fun k _ => ?_
  have hj0 : (j 0).val < 5000 := (j 0).isLt
  have hj1 : (j 1).val < 2 := (j 1).isLt
  have r0 : ((((cfg4.win 2).blk t).view.emb j) 0).val = t.val * 5000 + (j 0).val := by
    show win4_2.index t (0 : Fin 2) * 5000 + 1 * (j 0).val = _; rw [e4]; omega
  have r1 : ((((cfg4.win 2).blk t).view.emb j) 1).val = (j 1).val := by
    show win4_2.index t (1 : Fin 2) * 2 + 1 * (j 1).val = _; rw [e5]; omega
  rw [lhsBlock4_apply V c t _ (lhsAt4 ⟨((((cfg4.win 2).blk t).view.emb j) 0).val, ((((cfg4.win 2).blk t).view.emb j) 0).isLt⟩ k) r0 rfl,
    rhsBlock4_apply V c t]
  congr 2
  funext a
  apply Fin.ext
  match a with
  | ⟨0, _⟩ => rfl
  | ⟨1, _⟩ => exact r1.symm

/-- An index of the result array is in point `t`'s block iff each coordinate is in the block's range on its axis. -/
theorem mem_block4 (t : Fin cfg4.N) (i : S50000x2.Idx) :
    i ∈ ((cfg4.win 2).blk t).view.set ↔ ∀ a : Fin 2, win4_2.index t a * S5000x2.size a ≤ (i a).val ∧ (i a).val < win4_2.index t a * S5000x2.size a + S5000x2.size a := by
  show i ∈ ((View.whole main_v77).slice (win4_2.rect t)).set ↔ _
  rw [View.set_slice_whole, Rect.mem_set_unit]
  exact Iff.rfl

/-- The ten blocks tile the 50000 rows: row `r` is in the block of point `r / 5000`. -/
theorem cover4 (i : S50000x2.Idx) :
    ∃ t : Fin cfg4.N, (cfg4.win 2).flush t = true ∧ i ∈ ((cfg4.win 2).blk t).view.set := by
  have hi0 : (i 0).val < 50000 := (i 0).isLt
  have hi1 : (i 1).val < 2 := (i 1).isLt
  have hN : cfg4.N = 10 := N_4
  let t : Fin cfg4.N := ⟨(i 0).val / 5000, by rw [hN]; omega⟩
  have ht : t.val = (i 0).val / 5000 := rfl
  obtain ⟨-, -, -, -, e4, e5⟩ := blockIdx4 t
  refine ⟨t, flush4_2 t, ?_⟩
  rw [mem_block4]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 2 ≤ (i 1).val ∧ (i 1).val < win4_2.index t (1 : Fin 2) * 2 + 2; rw [e5]; omega

/-- The result array after the region: the product of the two arrays as the region finds them. -/
theorem final4_prod (c : Dev nD) :
    (dat4 V c).arrAt 2 cfg4.N = prod4 (V c main_v76) (V c main_arg14) :=
  (dat4 V c).arrAt_eq_of_cover 2 (prod4 (V c main_v76) (V c main_arg14)) (fun t _ => flushed4_eq V c t) cover4

/-- The result array after the region is the host's `dot_general` of the two arrays as the region finds them. -/
theorem final4 (c : Dev nD) :
    (dat4 (F := Ideal) V c).arrAt 2 cfg4.N
      = Host.dotGeneral (F := Ideal) (φ₁ := .f32) (φ₂ := .f32) Cert.ReferenceIdeal.dot_S50000x64_S64x2_S50000x2_1_0_0_1_n_n none (V c main_v76) (V c main_arg14) :=
  (final4_prod V c).trans (funext fun i => (host4_apply (V c main_v76) (V c main_arg14) i).symm)

end Cert.KernelIdeal.Dense

end
-- ==== Proof.ScaleShiftBlock3.lean ====
import proofs.«167507_j52218212385223_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

/-! # Region 3: the scale-shift-relu block, index by index

The region's output array after its ten grid points is, at every index `i = (r, k)` of the `50000 × 64` array,
`max (x i * scale (0, k) + shift (0, k)) 0`, where `x`, `scale`, `shift` are the region's three input arrays as the
region finds them: each grid point `t` writes rows `5000 t … 5000 t + 4999`, and these ten blocks tile the array. -/

noncomputable section

namespace Cert.KernelIdeal.ScaleShift

open Cert.KernelIdeal Cert.KernelIdeal.Gen Idealize.ShloMosaic Idealize.ShloMosaic.TcCoe Idealize.SL.Sem
open Idealize.ShloMosaic.ValueIdx
open Idealize.ShloMosaic.Pipeline (Dat)

/-- The index `(0, k)` of the one-row arrays that index `(r, k)` of the full array reads. -/
def row64 (i : S50000x64.Idx) : S1x64.Idx := fun a => match a with
  | ⟨0, _⟩ => ⟨0, Nat.one_pos⟩
  | ⟨1, _⟩ => ⟨(i 1).val, (i 1).isLt⟩

theorem offsets_zero3 : (![0, 0] : Fin 2 → Nat) = fun _ => 0 := funext fun a => by fin_cases a <;> rfl

/-- The body's payload at the index `(p, q)` of a block: the block's element there times the scale row's element
    `(0, q)`, plus the shift row's, clamped below at zero. -/
theorem pay3_apply (x0 : Vec Ideal S5000x64 .f32) (x1 x2 : Vec Ideal S1x64 .f32) (p : Fin 5000) (q : Fin 64) :
    k3_pay1 x0 x1 x2 (ix2 p q)
      = max (x0 (ix2 p q) * x1 (ix2 (0 : Fin 1) q) + x2 (ix2 (0 : Fin 1) q)) (0 : EReal) := by
  unfold k3_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- What the output array holds in the end, as one function of the three input arrays. -/
abbrev G3 (a0 : S50000x64.Idx → Elt Ideal .f32) (a1 a2 : S1x64.Idx → Elt Ideal .f32) : S50000x64.Idx → Elt Ideal .f32 :=
  fun i => max (a0 i * a1 (row64 i) + a2 (row64 i)) (0 : EReal)

/-- The index maps over the grid: the input block moves with the output block, which is block `t` of the rows; the two
    one-row windows stay at block `(0, 0)`. -/
theorem idx_facts3 : ∀ t : Fin cfg3.N, win3_0.index t (0 : Fin 2) = win3_3.index t (0 : Fin 2)
    ∧ win3_0.index t (1 : Fin 2) = win3_3.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 :=
  (by decide +kernel : ∀ t : Fin grid3.N, _)

/-- Every block of rows is some grid point's. -/
theorem idx_onto3 : ∀ (q0 : Fin 10), ∃ t : Fin cfg3.N, win3_3.index t = ![q0.val, 0] :=
  (by decide +kernel : ∀ (q0 : Fin 10), ∃ t : Fin grid3.N, win3_3.index t = ![q0.val, 0])

variable (V : (c : Dev nD) → (b : Ref sig .tc) → Buf (Elt Ideal) ((c : Thread nD τ).loc b))

/-- What grid point `t` writes back is block `t` of `G3` of the input arrays. -/
theorem flushed3_eq (c : Dev nD) (t : Fin cfg3.N) :
    (dat3 (F := Ideal) V c).flushed 3 t
      = ((cfg3.win 3).blk t).view.read (Elt Ideal) (G3 (V c main_v73) (V c main_v74) (V c main_v75)) := by
  show (cfg3.win 3).cut (grid3.coords t) ((dat3 (F := Ideal) V c).after 3 t) = _
  rw [after3_3]
  unfold out3_3
  rw [View.canon_unit_zero offsets_zero3]
  simp only [View.ld_unit_zero (S := S5000x64) offsets_zero3, View.ld_unit_zero (S := S1x64) offsets_zero3]
  obtain ⟨e0, e1, e2, e3, e4, e5, e6⟩ := idx_facts3 t
  funext j
  show k3_pay1 (iblk3 V c 0 t) (iblk3 V c 1 t) (iblk3 V c 2 t) j
    = G3 (V c main_v73) (V c main_v74) (V c main_v75) (((cfg3.win 3).blk t).view.emb j)
  obtain ⟨p, q, rfl⟩ : ∃ (p : Fin 5000) (q : Fin 64), j = ix2 p q := ⟨j 0, j 1, eq_ix2 j⟩
  refine (pay3_apply (iblk3 V c 0 t) (iblk3 V c 1 t) (iblk3 V c 2 t) p q).trans ?_
  have h0 : iblk3 V c 0 t (ix2 p q) = V c main_v73 (((cfg3.win 3).blk t).view.emb (ix2 p q)) := by
    show V c main_v73 (((cfg3.win 0).blk t).view.emb (ix2 p q)) = V c main_v73 (((cfg3.win 3).blk t).view.emb (ix2 p q))
    refine congrArg (V c main_v73) (funext fun a => Fin.ext ?_)
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have h1 : iblk3 V c 1 t (ix2 (0 : Fin 1) q) = V c main_v74 (row64 (((cfg3.win 3).blk t).view.emb (ix2 p q))) := by
    show V c main_v74 (((cfg3.win 1).blk t).view.emb (ix2 (0 : Fin 1) q)) = _
    refine congrArg (V c main_v74) (funext fun a => Fin.ext ?_)
    match a with
    | ⟨0, _⟩ => show win3_1.index t (0 : Fin 2) * 1 + 1 * 0 = 0; omega
    | ⟨1, _⟩ => show win3_1.index t (1 : Fin 2) * 64 + 1 * q.val = win3_3.index t (1 : Fin 2) * 64 + 1 * q.val; omega
  have h2 : iblk3 V c 2 t (ix2 (0 : Fin 1) q) = V c main_v75 (row64 (((cfg3.win 3).blk t).view.emb (ix2 p q))) := by
    show V c main_v75 (((cfg3.win 2).blk t).view.emb (ix2 (0 : Fin 1) q)) = _
    refine congrArg (V c main_v75) (funext fun a => Fin.ext ?_)
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  rw [h0, h1, h2]

/-- An index of the array is in point `t`'s block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v76).slice (win3_3.rect t)).set ↔ _
  rw [View.set_slice_whole, Rect.mem_set_unit]
  exact Iff.rfl

/-- The ten blocks tile the array: row `r` is in the block of point `r / 5000`. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the region, as one function of the three input arrays. -/
theorem final3_fun (c : Dev nD) :
    (dat3 (F := Ideal) V c).arrAt 3 cfg3.N = G3 (V c main_v73) (V c main_v74) (V c main_v75) :=
  (dat3 (F := Ideal) V c).arrAt_eq_of_cover 3 (G3 (V c main_v73) (V c main_v74) (V c main_v75))
    (fun t _ => flushed3_eq V c t) cover3

/-- The output array after the region, index by index (the product, the sum and the maximum are the extended reals'). -/
theorem final3 (c : Dev nD) (i : S50000x64.Idx) :
    (dat3 (F := Ideal) V c).arrAt 3 cfg3.N i
      = max (α := EReal) (HAdd.hAdd (α := EReal) (β := EReal) (γ := EReal)
          (HMul.hMul (α := EReal) (β := EReal) (γ := EReal) (V c main_v73 i) (V c main_v74 (row64 i)))
          (V c main_v75 (row64 i))) (0 : EReal) :=
  congrFun (final3_fun V c) i

end Cert.KernelIdeal.ScaleShift

end
-- ==== Proof.BatchNormLayer2.lean ====
/-
  The second hidden layer's bias, batch normalisation and clamp, against the folded form. At an index (r, k) of the
  50000 × 64 array, with a the aggregated value there (any extended real), the reference computes
  max((((a + b) − μ) · rsqrt(v + ε)) · g + β, 0) from column k of the parameter rows, and the folded form computes
  max(a · (g · rsqrt(v + ε)) + ((b − μ) · (g · rsqrt(v + ε)) + β), 0). With b, μ, g, β real and v a nonnegative real,
  rsqrt(v + ε) is real and the two affine maps of a agree on all extended reals.
-/
import proofs.«167507_j52218212385223_1_alg».proof.Proof.ReadPatched
import proofs.«167507_j52218212385223_1_alg».proof.Proof.BatchNormFold
import proofs.«167507_j52218212385223_1_alg».proof.Proof.ScaleShiftBlock3
import proofs.«167507_j52218212385223_1_alg».proof.Proof.FoldedParams
import Idealize.ShloMosaic.Lib.ValueIdx
import Idealize.ShloMosaic.Lib.Pipeline.Value
import Idealize.ShloMosaic.Lib.ValueLayout
import Idealize.ShloMosaic.PureOps.Ideal.Laws

noncomputable section

namespace Cert.Layer

open Cert.KernelIdeal Cert.KernelIdeal.Facts₀ Idealize.ShloMosaic Idealize.ShloMosaic.ValueIdx
open Cert.ReferenceIdeal.ReadP

/-- The column of an index of the 50000 × 64 array, as an index of a width-64 row. -/
def col64 (i : S50000x64.Idx) : S64.Idx := fun a => match a with
  | ⟨0, _⟩ => ⟨(i 1).val, (i 1).isLt⟩

/-- A width-64 row laid out as a one-row matrix, read at (0, k), is the row at k. -/
theorem row64_apply (p : FVec Ideal S64 .f32) (i : S50000x64.Idx) :
    Cert.KernelIdeal.Folded.row64 p (Cert.KernelIdeal.ScaleShift.row64 i) = p (col64 i) := by
  unfold Cert.KernelIdeal.Folded.row64
  exact shapeCast_apply p shapeCasts_S64_S1x64 (Cert.KernelIdeal.ScaleShift.row64 i) (col64 i) (by
    rw [Shape.rowMajor_val_two, Shape.rowMajor_val_one]
    show (i 1).val = 0 * 64 + (i 1).val
    omega)

/-- The folded scale at a column: g · rsqrt(v + ε). -/
theorem scale64_apply (g v : FVec Ideal S64 .f32) (j : S64.Idx) :
    Cert.KernelIdeal.Folded.scale64 g v j = g j * Ideal.rsqrt (v j + Ideal.ofBits .f32 0x3727C5AC#32) := rfl

/-- The folded shift at a column: (b − μ) · scale + β. -/
theorem shift64_apply (b g β μ v : FVec Ideal S64 .f32) (j : S64.Idx) :
    Cert.KernelIdeal.Folded.shift64 b g β μ v j = (b j - μ j) * Cert.KernelIdeal.Folded.scale64 g v j + β j := rfl

/-! Each parameter row reaches the 50000 × 64 array through a one-row matrix; the two index maps composed send
    (r, k) to k. -/
theorem c92 (i : S50000x64.Idx) : idx_main_v92 (idx_main_v93 i) = col64 i :=
  funext fun a => Fin.ext (by match a with | ⟨0, _⟩ => rfl)
theorem c95 (i : S50000x64.Idx) : idx_main_v95 (idx_main_v96 i) = col64 i :=
  funext fun a => Fin.ext (by match a with | ⟨0, _⟩ => rfl)
theorem c101 (i : S50000x64.Idx) : idx_main_v101 (idx_main_v102 i) = col64 i :=
  funext fun a => Fin.ext (by match a with | ⟨0, _⟩ => rfl)
theorem c104 (i : S50000x64.Idx) : idx_main_v104 (idx_main_v105 i) = col64 i :=
  funext fun a => Fin.ext (by match a with | ⟨0, _⟩ => rfl)
theorem c107 (i : S50000x64.Idx) : idx_main_v107 (idx_main_v108 i) = col64 i :=
  funext fun a => Fin.ext (by match a with | ⟨0, _⟩ => rfl)

/-- The reference's second normalised and clamped layer at an index, in terms of the aggregated value there and
    column k of the parameter rows. -/
theorem ref_apply (x0 : FVec Ideal S50000x512 .f32) (x1 : IVec S2x800000 32) (x2 : FVec Ideal S512x128 .f32)
    (x3 x4 x5 x6 x7 : FVec Ideal S128 .f32) (x8 : FVec Ideal S128x64 .f32) (x9 x10 x11 x12 x13 : FVec Ideal S64 .f32) (i : S50000x64.Idx) :
    val_main_v110 (F := Ideal) x0 x1 x2 x3 x4 x5 x6 x7 x8 x9 x10 x11 x12 x13 i
      = max ((((val_main_v91 (F := Ideal) x0 x1 x2 x3 x4 x5 x6 x7 x8 i + x9 (col64 i)) - x12 (col64 i))
              * Ideal.rsqrt (x13 (col64 i) + Ideal.ofBits .f32 0x3727C5AC#32)) * x10 (col64 i) + x11 (col64 i)) (0 : EReal) := by
  rw [val_main_v110_apply, val_main_v109_apply, val_main_v108_apply, val_main_v107_apply, val_main_v106_apply,
    val_main_v105_apply, val_main_v104_apply, val_main_v103_apply, val_main_v102_apply, val_main_v101_apply,
    val_main_v100_apply, val_main_v99_apply, val_main_v98_apply, val_main_cst_17_apply, val_main_v97_apply,
    val_main_v96_apply, val_main_v95_apply, val_main_v94_apply, val_main_v93_apply, val_main_v92_apply,
    val_main_call2_v0_apply, val_main_call2_cst_apply, c92, c95, c101, c104, c107]
  generalize val_main_v91 (F := Ideal) x0 x1 x2 x3 x4 x5 x6 x7 x8 i = a
  show max ((((a + x9 (col64 i)) - x12 (col64 i)) * Ideal.rsqrt (x13 (col64 i) + Ideal.ofBits .f32 0x3727C5AC#32))
      * x10 (col64 i) + x11 (col64 i)) (Ideal.ofBits .f32 0x00000000#32) = _
  rw [Ideal.ofBits_zero_f32]

/-- The folded form of the second layer is the reference's second normalised and clamped layer. -/
theorem bn2 (x0 : FVec Ideal S50000x512 .f32) (x1 : IVec S2x800000 32) (x2 : FVec Ideal S512x128 .f32)
    (x3 x4 x5 x6 x7 : FVec Ideal S128 .f32) (x8 : FVec Ideal S128x64 .f32) (x9 x10 x11 x12 x13 : FVec Ideal S64 .f32)
    (h9 : ∀ j, ∃ r : ℝ, x9 j = (r : EReal)) (h10 : ∀ j, ∃ r : ℝ, x10 j = (r : EReal)) (h11 : ∀ j, ∃ r : ℝ, x11 j = (r : EReal)) (h12 : ∀ j, ∃ r : ℝ, x12 j = (r : EReal))
    (h13 : ∀ j, ∃ r : ℝ, 0 ≤ r ∧ x13 j = (r : EReal)) :
    Cert.KernelIdeal.ScaleShift.G3 (Cert.ReferenceIdeal.ReadP.val_main_v91 (F := Ideal) x0 x1 x2 x3 x4 x5 x6 x7 x8)
        (Cert.KernelIdeal.Folded.row64 (Cert.KernelIdeal.Folded.scale64 x10 x13))
        (Cert.KernelIdeal.Folded.row64 (Cert.KernelIdeal.Folded.shift64 x9 x10 x11 x12 x13))
      = Cert.ReferenceIdeal.ReadP.val_main_v110 (F := Ideal) x0 x1 x2 x3 x4 x5 x6 x7 x8 x9 x10 x11 x12 x13 := by
  funext i
  obtain ⟨b, hb⟩ := h9 (col64 i)
  obtain ⟨g, hg⟩ := h10 (col64 i)
  obtain ⟨β, hβ⟩ := h11 (col64 i)
  obtain ⟨mu, hmu⟩ := h12 (col64 i)
  obtain ⟨v, hv0, hv⟩ := h13 (col64 i)
  obtain ⟨r, hr⟩ := Cert.BatchNorm.rsqrt_real v hv0
  rw [ref_apply]
  show max (val_main_v91 (F := Ideal) x0 x1 x2 x3 x4 x5 x6 x7 x8 i
        * Cert.KernelIdeal.Folded.row64 (Cert.KernelIdeal.Folded.scale64 x10 x13) (Cert.KernelIdeal.ScaleShift.row64 i)
      + Cert.KernelIdeal.Folded.row64 (Cert.KernelIdeal.Folded.shift64 x9 x10 x11 x12 x13) (Cert.KernelIdeal.ScaleShift.row64 i))
      (0 : EReal) = _
  rw [row64_apply, row64_apply, shift64_apply, scale64_apply]
  generalize val_main_v91 (F := Ideal) x0 x1 x2 x3 x4 x5 x6 x7 x8 i = a
  rw [hb, hg, hβ, hmu, hv, hr]
  exact congrArg (fun z => max z (0 : EReal)) (Cert.BatchNorm.fold a b mu g β r).symm

end Cert.Layer

end
-- ==== Proof.Layer2Contents.lean ====
/-
  The second layer and the output layer of the kernel program, buffer by buffer, against the reference's stages: the
  aggregation of the second product over the edges, region 3's folded batch norm and maximum against zero (the
  reference's bias, normalisation and relu, the parameters being finite and the variance nonnegative), region 4's product
  with w₃, and the last host stretch: the third aggregation and the output bias. The edge-weight column the reference
  recomputes for each layer is the one column the kernel computed once.
-/
import proofs.«167507_j52218212385223_1_alg».proof.Proof.Gen.KernelIdeal.Frame
import proofs.«167507_j52218212385223_1_alg».proof.Proof.ReadPatched
import proofs.«167507_j52218212385223_1_alg».proof.Proof.FoldedParams
import proofs.«167507_j52218212385223_1_alg».proof.Proof.EntryContents
import proofs.«167507_j52218212385223_1_alg».proof.Proof.Layer1Contents
import proofs.«167507_j52218212385223_1_alg».proof.Proof.DenseBlock4
import proofs.«167507_j52218212385223_1_alg».proof.Proof.ScaleShiftBlock3
import proofs.«167507_j52218212385223_1_alg».proof.Proof.BatchNormLayer2

set_option maxRecDepth 16384

noncomputable section

namespace Cert.KernelIdeal.Bound

open Cert.KernelIdeal Cert.KernelIdeal.Gen Cert.KernelIdeal.Facts₀
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

set_option quotPrecheck false
local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)
local notation "x14" => m ((c : Thread nD τ).loc main_arg14)
local notation "x15" => m ((c : Thread nD τ).loc main_arg15)

/-! ## The host stretch between regions 2 and 3 -/

theorem agg2_8 (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal)) :
    W8 m ρ c (Proc.devRef .tc main_v73) = val_main_v91 (F := Ideal) x0 x1 x2 x3 x4 x5 x6 x7 x8 := by
  show StableHlo.after hostOps3 (W7 m ρ c) (Proc.devRef .tc main_v73) = _
  after_results_simp
  rw [prod2_7 m ρ c h3 h4 h5 h6 h7, src7, dst7, wt7, ← wt_layer2]
  rfl

theorem scaleRow2_8 : W8 m ρ c (Proc.devRef .tc main_v74) = Folded.row64 (Folded.scale64 x10 x13) := by
  show StableHlo.after hostOps3 (W7 m ρ c) (Proc.devRef .tc main_v74) = _
  after_results_simp
  rw [scale2_7]
  rfl

theorem shiftRow2_8 : W8 m ρ c (Proc.devRef .tc main_v75) = Folded.row64 (Folded.shift64 x9 x10 x11 x12 x13) := by
  show StableHlo.after hostOps3 (W7 m ρ c) (Proc.devRef .tc main_v75) = _
  after_results_simp
  rw [shift2_7]
  rfl

theorem src8 : W8 m ρ c (Proc.devRef .tc main_v3) = val_main_v3 (F := Ideal) x1 := by
  refine Eq.trans ?_ (src7 m ρ c)
  show StableHlo.after hostOps3 (W7 m ρ c) (Proc.devRef .tc main_v3) = _
  after_results_simp
theorem dst8 : W8 m ρ c (Proc.devRef .tc main_v6) = val_main_v6 (F := Ideal) x1 := by
  refine Eq.trans ?_ (dst7 m ρ c)
  show StableHlo.after hostOps3 (W7 m ρ c) (Proc.devRef .tc main_v6) = _
  after_results_simp
theorem wt8 : W8 m ρ c (Proc.devRef .tc main_v30) = val_main_v38 (F := Ideal) x1 := by
  refine Eq.trans ?_ (wt7 m ρ c)
  show StableHlo.after hostOps3 (W7 m ρ c) (Proc.devRef .tc main_v30) = _
  after_results_simp
theorem arg14_8 : W8 m ρ c (Proc.devRef .tc main_arg14) = x14 := by
  refine Eq.trans ?_ (arg14_7 m ρ c)
  show StableHlo.after hostOps3 (W7 m ρ c) (Proc.devRef .tc main_arg14) = _
  after_results_simp
theorem arg15_8 : W8 m ρ c (Proc.devRef .tc main_arg15) = x15 := by
  refine Eq.trans ?_ (arg15_7 m ρ c)
  show StableHlo.after hostOps3 (W7 m ρ c) (Proc.devRef .tc main_arg15) = _
  after_results_simp

/-! ## Region 3: the second layer's activation -/

theorem act2_9 (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal))
    (h9 : ∀ j, ∃ r : ℝ, x9 j = (r : EReal)) (h10 : ∀ j, ∃ r : ℝ, x10 j = (r : EReal)) (h11 : ∀ j, ∃ r : ℝ, x11 j = (r : EReal))
    (h12 : ∀ j, ∃ r : ℝ, x12 j = (r : EReal)) (h13 : ∀ j, ∃ r : ℝ, 0 ≤ r ∧ x13 j = (r : EReal)) :
    W9 m ρ c (Proc.devRef .tc main_v76) = val_main_v110 (F := Ideal) x0 x1 x2 x3 x4 x5 x6 x7 x8 x9 x10 x11 x12 x13 := by
  refine (W9_arr m ρ c 3).trans ?_
  rw [Cert.KernelIdeal.ScaleShift.final3_fun (V8 m ρ) c]
  rw [show V8 m ρ c main_v73 = _ from agg2_8 m ρ c h3 h4 h5 h6 h7, show V8 m ρ c main_v74 = _ from scaleRow2_8 m ρ c,
    show V8 m ρ c main_v75 = _ from shiftRow2_8 m ρ c]
  exact Cert.Layer.bn2 x0 x1 x2 x3 x4 x5 x6 x7 x8 x9 x10 x11 x12 x13 h9 h10 h11 h12 h13

/-! ## Region 4: the product with w₃ -/

theorem prod3_10 (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal))
    (h9 : ∀ j, ∃ r : ℝ, x9 j = (r : EReal)) (h10 : ∀ j, ∃ r : ℝ, x10 j = (r : EReal)) (h11 : ∀ j, ∃ r : ℝ, x11 j = (r : EReal))
    (h12 : ∀ j, ∃ r : ℝ, x12 j = (r : EReal)) (h13 : ∀ j, ∃ r : ℝ, 0 ≤ r ∧ x13 j = (r : EReal)) :
    W10 m ρ c (Proc.devRef .tc main_v77) = val_main_v111 (F := Ideal) x0 x1 x2 x3 x4 x5 x6 x7 x8 x9 x10 x11 x12 x13 x14 := by
  refine (W10_arr m ρ c 2).trans ?_
  rw [Cert.KernelIdeal.Dense.final4 (V9 m ρ) c]
  rw [show V9 m ρ c main_v76 = _ from act2_9 m ρ c h3 h4 h5 h6 h7 h9 h10 h11 h12 h13,
    show V9 m ρ c main_arg14 = x14 from (W9_of_ne m ρ c main_arg14 (by decide)).trans (arg14_8 m ρ c)]
  rfl

/-! ## Carried to region 4's exit -/

theorem src10 : W10 m ρ c (Proc.devRef .tc main_v3) = val_main_v3 (F := Ideal) x1 :=
  (W10_of_ne m ρ c main_v3 (by decide)).trans ((W9_of_ne m ρ c main_v3 (by decide)).trans (src8 m ρ c))
theorem dst10 : W10 m ρ c (Proc.devRef .tc main_v6) = val_main_v6 (F := Ideal) x1 :=
  (W10_of_ne m ρ c main_v6 (by decide)).trans ((W9_of_ne m ρ c main_v6 (by decide)).trans (dst8 m ρ c))
theorem wt10 : W10 m ρ c (Proc.devRef .tc main_v30) = val_main_v38 (F := Ideal) x1 :=
  (W10_of_ne m ρ c main_v30 (by decide)).trans ((W9_of_ne m ρ c main_v30 (by decide)).trans (wt8 m ρ c))
theorem arg15_10 : W10 m ρ c (Proc.devRef .tc main_arg15) = x15 :=
  (W10_of_ne m ρ c main_arg15 (by decide)).trans ((W9_of_ne m ρ c main_arg15 (by decide)).trans (arg15_8 m ρ c))

/-! ## The last host stretch: the third aggregation and the output bias -/

/-- The kernel program's result buffer holds the reference's result, as one function of the argument arrays. -/
theorem result (h3 : ∀ j, ∃ r : ℝ, x3 j = (r : EReal)) (h4 : ∀ j, ∃ r : ℝ, x4 j = (r : EReal)) (h5 : ∀ j, ∃ r : ℝ, x5 j = (r : EReal))
    (h6 : ∀ j, ∃ r : ℝ, x6 j = (r : EReal)) (h7 : ∀ j, ∃ r : ℝ, 0 ≤ r ∧ x7 j = (r : EReal))
    (h9 : ∀ j, ∃ r : ℝ, x9 j = (r : EReal)) (h10 : ∀ j, ∃ r : ℝ, x10 j = (r : EReal)) (h11 : ∀ j, ∃ r : ℝ, x11 j = (r : EReal))
    (h12 : ∀ j, ∃ r : ℝ, x12 j = (r : EReal)) (h13 : ∀ j, ∃ r : ℝ, 0 ≤ r ∧ x13 j = (r : EReal)) :
    W11 m ρ c (Proc.devRef .tc main_v92) = val_main_v142 (F := Ideal) x0 x1 x2 x3 x4 x5 x6 x7 x8 x9 x10 x11 x12 x13 x14 x15 := by
  show StableHlo.after hostOps5 (W10 m ρ c) (Proc.devRef .tc main_v92) = _
  after_results_simp
  rw [prod3_10 m ρ c h3 h4 h5 h6 h7 h9 h10 h11 h12 h13, src10, dst10, wt10, arg15_10, ← wt_layer3]
  rfl

end Cert.KernelIdeal.Bound

end
-- ==== Proof.lean ====
/-
  The certificate of a three-layer graph convolution network: per layer a dense product on the matrix unit, the
  normalised aggregation over the edges (gather by source, weight d[src]·d[dst], scatter-add by destination) on the
  host, and for the two hidden layers the bias, batch normalisation and relu.

  The kernel program folds each hidden layer's bias and batch normalisation into one affine map per column,
  h ↦ max(h·s + t, 0) with s = g·rsqrt(v + ε) and t = (b − μ)·s + β, where the reference computes
  max((((h + b) − μ)·rsqrt(v + ε))·g + β, 0). On the extended reals the two agree for EVERY h — finite or not — as soon as
  b, μ, g, β are reals and rsqrt(v + ε) is a real, which holds when v is a nonnegative real (ε > 0); with v = −ε the scale is
  +∞ and the two differ, so the variance's nonnegativity is part of the precondition. Everything else is the same operations
  in both programs: the products agree at Ideal (a sum over the contracted axis on either side, whatever the tiling and the
  narrowing of the operands), and the index vectors, the edge weights and the three aggregations are the same host operations,
  carried as the reference's own stages and never opened.

  The three frames are the generated ones (the reference's is its run with the result dropped); the idealization rewrote
  nothing, so `preserves` is trivial.
-/
import proofs.«167507_j52218212385223_1_alg».proof.Defs
import proofs.«167507_j52218212385223_1_alg».proof.Proof.Gen.Kernel
import proofs.«167507_j52218212385223_1_alg».proof.Proof.Gen.Kernel.Frame
import proofs.«167507_j52218212385223_1_alg».proof.Proof.Gen.KernelIdeal
import proofs.«167507_j52218212385223_1_alg».proof.Proof.Gen.KernelIdeal.Frame
import proofs.«167507_j52218212385223_1_alg».proof.Proof.Gen.ReferenceIdeal
import proofs.«167507_j52218212385223_1_alg».proof.Proof.Gen.Pre_finite_inputs
import proofs.«167507_j52218212385223_1_alg».proof.Proof.RunPatched
import proofs.«167507_j52218212385223_1_alg».proof.Proof.ReadPatched
import proofs.«167507_j52218212385223_1_alg».proof.Proof.NamedRun
import proofs.«167507_j52218212385223_1_alg».proof.Proof.FiniteParams
import proofs.«167507_j52218212385223_1_alg».proof.Proof.Layer2Contents
import Idealize.ShloMosaic.Adequacy
import Idealize.ShloMosaic.Init

set_option maxRecDepth 16384

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end with the reference's last stage of the argument arrays in their result buffers. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.ReferenceIdeal.ReadP.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ⟨(h c).1.trans ?_, (h c).2⟩) (Cert.KernelIdeal.Named.run (F := Ideal) m ρ)
    obtain ⟨h3, h4, h5, h6, h7, h9, h10, h11, h12, h13⟩ := Cert.Pre_finite_inputs.Params.of_pre _ _ _ _ _ _ _ _ _ _ _ _ _ _ _ _ (hpre c)
    exact Cert.KernelIdeal.Bound.result m ρ c h3 h4 h5 h6 h7 h9 h10 h11 h12 h13
  · refine (θ_run Cert.ReferenceIdeal.defs _ _).mono (fun r h c => ⟨(h c).1.trans ?_, (h c).2⟩) (Cert.ReferenceIdeal.ValueP.run (F := Ideal) m' ρ')
    rw [Cert.ReferenceIdeal.ReadP.val_main_v142_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
